-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S40000 : Shape := ⟨1, ![40000]⟩
abbrev S128x128 : Shape := ⟨2, ![128, 128]⟩
abbrev S128 : Shape := ⟨1, ![128]⟩
abbrev S640000 : Shape := ⟨1, ![640000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S40000 : S_.BroadcastsInDim S40000 (![] : Fin 0 → Fin S40000.rank)
  reducesTo_S40000_S_d0 : S40000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128x128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S100000 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S40000 1) : IVec S_ 1 :=
  let main_c_5 : IVec S_ 1 := constantI S_ 1 1#1
  let main_v17 : IVec S_ 1 := (fun x v => Host.reduce IntOp.andi x v reducesTo_S40000_S_d0 h_S_) main_v16 main_c_5
  let main_v18 : IVec S_ 1 := andi main_v13 main_v17
  let main_v19 : FVec F S100000 .f32 := Host.absf main_arg4
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S100000x128 .f32) (main_arg1 : FVec F S100000 .f32) (main_arg2 : FVec F S40000 .f32) (main_arg3 : FVec F S40000 .f32) (main_arg4 : FVec F S100000 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : IVec S640000 32) (main_arg14 : IVec S640000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S40000 .f32 := Host.absf main_arg2
  let main_cst_2 : FVec F S_ .f32 := constant S_ .f32 0x7F800000#32
  let main_v10 : FVec F S40000 .f32 := broadcastInDim S40000 ![] bcast_S_S40000 main_cst_2
  let main_v11 : IVec S40000 1 := cmpf .olt main_v9 main_v10
  let main_c_3 : IVec S_ 1 := constantI S_ 1 1#1
  let main_v12 : IVec S_ 1 := (fun x v => Host.reduce IntOp.andi x v reducesTo_S40000_S_d0 h_S_) main_v11 main_c_3
  let main_v13 : IVec S_ 1 := andi main_v8 main_v12
  let main_v14 : FVec F S40000 .f32 := Host.absf main_arg3
  let main_cst_4 : FVec F S_ .f32 := constant S_ .f32 0x7F800000#32
  let main_v15 : FVec F S40000 .f32 := broadcastInDim S40000 ![] bcast_S_S40000 main_cst_4
  let main_v16 : IVec S40000 1 := cmpf .olt main_v14 main_v15
  fn_part1 (F := F) main_arg4 main_arg5 main_arg6 main_arg7 main_arg8 main_arg9 main_arg10 main_arg11 main_arg12 main_v13 main_v16
-- ==== Kernel.lean ====
abbrev S100000x128 : Shape := ⟨2, ![100000, 128]⟩
abbrev S100000 : Shape := ⟨1, ![100000]⟩
abbrev S40000 : Shape := ⟨1, ![40000]⟩
abbrev S128x128 : Shape := ⟨2, ![128, 128]⟩
abbrev S128 : Shape := ⟨1, ![128]⟩
abbrev S640000 : Shape := ⟨1, ![640000]⟩
abbrev S_ : Shape := ⟨0, ![]⟩
abbrev S100000x1 : Shape := ⟨2, ![100000, 1]⟩
abbrev S5000x128 : Shape := ⟨2, ![5000, 128]⟩
abbrev S5000x1 : Shape := ⟨2, ![5000, 1]⟩
abbrev S1x128 : Shape := ⟨2, ![1, 128]⟩
abbrev S640000x1 : Shape := ⟨2, ![640000, 1]⟩
abbrev S640000x128 : Shape := ⟨2, ![640000, 128]⟩
abbrev S40000x128 : Shape := ⟨2, ![40000, 128]⟩
abbrev S40000x1 : Shape := ⟨2, ![40000, 1]⟩

abbrev nBuf : Space → Nat
  | .hbm => 83
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S100000, .f32⟩
  | .hbm, ⟨2, _⟩ => ⟨S40000, .f32⟩
  | .hbm, ⟨3, _⟩ => ⟨S40000, .f32⟩
  | .hbm, ⟨4, _⟩ => ⟨S100000, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S640000, .i32⟩
  | .hbm, ⟨14, _⟩ => ⟨S640000, .i32⟩
  | .hbm, ⟨15, _⟩ => ⟨S_, .f32⟩
  | .hbm, ⟨16, _⟩ => ⟨S100000, .f32⟩
  | .hbm, ⟨17, _⟩ => ⟨S100000x1, .f32⟩
  | .hbm, ⟨18, _⟩ => ⟨S100000x1, .f32⟩
  | .hbm, ⟨19, _⟩ => ⟨S100000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S_, .f32⟩
  | .hbm, ⟨30, _⟩ => ⟨S40000x128, .f32⟩
  | .hbm, ⟨31, _⟩ => ⟨S640000x1, .i32⟩
  | .hbm, ⟨32, _⟩ => ⟨S40000x128, .f32⟩
  | .hbm, ⟨33, _⟩ => ⟨S40000x1, .f32⟩
  | .hbm, ⟨34, _⟩ => ⟨S40000x1, .f32⟩
  | .hbm, ⟨35, _⟩ => ⟨S40000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S_, .f32⟩
  | .hbm, ⟨46, _⟩ => ⟨S100000x128, .f32⟩
  | .hbm, ⟨47, _⟩ => ⟨S640000x1, .i32⟩
  | .hbm, ⟨48, _⟩ => ⟨S100000x128, .f32⟩
  | .hbm, ⟨49, _⟩ => ⟨S100000x1, .f32⟩
  | .hbm, ⟨50, _⟩ => ⟨S100000x1, .f32⟩
  | .hbm, ⟨51, _⟩ => ⟨S100000x128, .f32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x128, .f32⟩
  | .hbm, ⟨61, _⟩ => ⟨S_, .f32⟩
  | .hbm, ⟨62, _⟩ => ⟨S40000x128, .f32⟩
  | .hbm, ⟨63, _⟩ => ⟨S640000x1, .i32⟩
  | .hbm, ⟨64, _⟩ => ⟨S40000x128, .f32⟩
  | .hbm, ⟨65, _⟩ => ⟨S40000x1, .f32⟩
  | .hbm, ⟨66, _⟩ => ⟨S40000x1, .f32⟩
  | .hbm, ⟨67, _⟩ => ⟨S40000x128, .f32⟩
  | .hbm, ⟨68, _⟩ => ⟨S_, .i32⟩
  | .hbm, ⟨69, _⟩ => ⟨S640000, .i32⟩
  | .hbm, ⟨70, _⟩ => ⟨S640000, .i1⟩
  | .hbm, ⟨71, _⟩ => ⟨S_, .i32⟩
  | .hbm, ⟨72, _⟩ => ⟨S640000, .i32⟩
  | .hbm, ⟨73, _⟩ => ⟨S640000, .i32⟩
  | .hbm, ⟨74, _⟩ => ⟨S640000, .i32⟩
  | .hbm, ⟨75, _⟩ => ⟨S640000x1, .i32⟩
  | .hbm, ⟨76, _⟩ => ⟨S640000x128, .f32⟩
  | .hbm, ⟨77, _⟩ => ⟨S_, .f32⟩
  | .hbm, ⟨78, _⟩ => ⟨S100000x128, .f32⟩
  | .hbm, ⟨79, _⟩ => ⟨S640000x1, .i32⟩
  | .hbm, ⟨80, _⟩ => ⟨S100000x128, .f32⟩
  | .hbm, ⟨81, _⟩ => ⟨S100000x1, .f32⟩
  | .hbm, ⟨82, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S128, .f32⟩
  | .local _ .vmem, ⟨6, _⟩ => ⟨S5000x1, .f32⟩
  | .local _ .vmem, ⟨7, _⟩ => ⟨S5000x1, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S128x128, .f32⟩
  | .local _ .vmem, ⟨15, _⟩ => ⟨S128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S128x128, .f32⟩
  | .local _ .vmem, ⟨25, _⟩ => ⟨S128, .f32⟩
  | .local _ .vmem, ⟨26, _⟩ => ⟨S5000x1, .f32⟩
  | .local _ .vmem, ⟨27, _⟩ => ⟨S5000x1, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S128x128, .f32⟩
  | .local _ .vmem, ⟨35, _⟩ => ⟨S128, .f32⟩
  | .local _ .vmem, ⟨36, _⟩ => ⟨S5000x1, .f32⟩
  | .local _ .vmem, ⟨37, _⟩ => ⟨S5000x1, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x1, .f32⟩
  | .local _ .vmem, ⟨43, _⟩ => ⟨S5000x1, .f32⟩
  | .local _ .vmem, ⟨44, _⟩ => ⟨S5000x128, .f32⟩
  | .local _ .vmem, ⟨45, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_8 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S100000 : S_.BroadcastsInDim S100000 (![] : Fin 0 → Fin S100000.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  shapeCasts_S40000_S40000x1 : S40000.ShapeCasts S40000x1
  shapeCasts_S5000x128_S5000x128 : S5000x128.ShapeCasts S5000x128
  bcast_S_S100000x128 : S_.BroadcastsInDim S100000x128 (![] : Fin 0 → Fin S100000x128.rank)
  dot_S5000x128_S128x128_S5000x128_1_0_0_1_n_n_wf : DotDims.WF S5000x128 S128x128 S5000x128 [1] [0] [0] [1] [] []
  gather_S100000x128_S640000x1_S640000x128_1_0_n_n_0_1_1128_wf : GatherDims.WF S100000x128 S640000x1 S640000x128 [1] [0] [] [0] [] 1 ![1, 128]
  scatter_S40000x128_S640000x1_S640000x128_1_0_0_1_wf : ScatterDims.WF S40000x128 S640000x1 S640000x128 [1] [0] [0] 1
  gather_S40000x128_S640000x1_S640000x128_1_0_n_n_0_1_1128_wf : GatherDims.WF S40000x128 S640000x1 S640000x128 [1] [0] [] [0] [] 1 ![1, 128]
  scatter_S100000x128_S640000x1_S640000x128_1_0_0_1_wf : ScatterDims.WF S100000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S40000x1.size a
  hwx1_1 : ∀ i : grid1.Coords, EltTy.bits .f32 = 32 ∨ (Rect.block (s := S40000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S40000x1.size a
  hwx1_4 : ∀ i : grid1.Coords, EltTy.bits .f32 = 32 ∨ (Rect.block (s := S40000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S40000x128.size a
  hwx1_5 : ∀ i : grid1.Coords, EltTy.bits .f32 = 32 ∨ (Rect.block (s := S40000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .f32 = 32 ∨ (Rect.block (s := S100000x1) S5000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S40000x1.size a
  hwx3_1 : ∀ i : grid3.Coords, EltTy.bits .f32 = 32 ∨ (Rect.block (s := S40000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S40000x1.size a
  hwx3_4 : ∀ i : grid3.Coords, EltTy.bits .f32 = 32 ∨ (Rect.block (s := S40000x1) S5000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S40000x128.size a
  hwx3_5 : ∀ i : grid3.Coords, EltTy.bits .f32 = 32 ∨ (Rect.block (s := S40000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v29) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S5000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v42) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v52) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S100000 : Shape := ⟨1, ![100000]⟩
abbrev S40000 : Shape := ⟨1, ![40000]⟩
abbrev S128x128 : Shape := ⟨2, ![128, 128]⟩
abbrev S128 : Shape := ⟨1, ![128]⟩
abbrev S640000 : Shape := ⟨1, ![640000]⟩
abbrev S1x128 : Shape := ⟨2, ![1, 128]⟩
abbrev S100000x1 : Shape := ⟨2, ![100000, 1]⟩
abbrev S_ : Shape := ⟨0, ![]⟩
abbrev S640000x1 : Shape := ⟨2, ![640000, 1]⟩
abbrev S640000x128 : Shape := ⟨2, ![640000, 128]⟩
abbrev S40000x128 : Shape := ⟨2, ![40000, 128]⟩
abbrev S40000x1 : Shape := ⟨2, ![40000, 1]⟩

abbrev nBuf : Space → Nat
  | .hbm => 152
  | .vmem => 0
  | .smem => 0
  | _ => 0

abbrev hbmTy0_0 (i : Nat) : BufTy := match i % 128 with
  | 0 => ⟨S100000x128, .f32⟩
  | 1 => ⟨S100000, .f32⟩
  | 2 => ⟨S40000, .f32⟩
  | 3 => ⟨S40000, .f32⟩
  | 4 => ⟨S100000, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S640000, .i32⟩
  | 14 => ⟨S640000, .i32⟩
  | 15 => ⟨S100000x128, .f32⟩
  | 16 => ⟨S1x128, .f32⟩
  | 17 => ⟨S100000x128, .f32⟩
  | 18 => ⟨S100000x128, .f32⟩
  | 19 => ⟨S100000x1, .f32⟩
  | 20 => ⟨S100000x128, .f32⟩
  | 21 => ⟨S100000x128, .f32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000, .f32⟩
  | 31 => ⟨S640000x1, .f32⟩
  | 32 => ⟨S_, .i32⟩
  | 33 => ⟨S640000, .i32⟩
  | 34 => ⟨S640000, .i1⟩
  | 35 => ⟨S_, .i32⟩
  | 36 => ⟨S640000, .i32⟩
  | 37 => ⟨S640000, .i32⟩
  | 38 => ⟨S640000, .i32⟩
  | 39 => ⟨S640000x1, .i32⟩
  | 40 => ⟨S640000x128, .f32⟩
  | 41 => ⟨S640000x128, .f32⟩
  | 42 => ⟨S640000x128, .f32⟩
  | 43 => ⟨S_, .f32⟩
  | 44 => ⟨S40000x128, .f32⟩
  | 45 => ⟨S640000x1, .i32⟩
  | 46 => ⟨S40000x128, .f32⟩
  | 47 => ⟨S_, .f32⟩
  | 48 => ⟨S40000x128, .f32⟩
  | 49 => ⟨S40000x128, .f32⟩
  | 50 => ⟨S40000x128, .f32⟩
  | 51 => ⟨S1x128, .f32⟩
  | 52 => ⟨S40000x128, .f32⟩
  | 53 => ⟨S40000x128, .f32⟩
  | 54 => ⟨S40000x1, .f32⟩
  | 55 => ⟨S40000x128, .f32⟩
  | 56 => ⟨S40000x128, .f32⟩
  | 57 => ⟨S_, .i32⟩
  | 58 => ⟨S640000, .i32⟩
  | 59 => ⟨S640000, .i1⟩
  | 60 => ⟨S_, .i32⟩
  | 61 => ⟨S640000, .i32⟩
  | 62 => ⟨S640000, .i32⟩
  | 63 => ⟨S640000, .i32⟩
  | 64 => ⟨S640000x1, .i32⟩
  | 65 => ⟨S640000, .f32⟩
  | 66 => ⟨S640000x1, .f32⟩
  | 67 => ⟨S_, .i32⟩
  | 68 => ⟨S640000, .i32⟩
  | 69 => ⟨S640000, .i1⟩
  | 70 => ⟨S_, .i32⟩
  | 71 => ⟨S640000, .i32⟩
  | 72 => ⟨S640000, .i32⟩
  | 73 => ⟨S640000, .i32⟩
  | 74 => ⟨S640000x1, .i32⟩
  | 75 => ⟨S640000x128, .f32⟩
  | 76 => ⟨S640000x128, .f32⟩
  | 77 => ⟨S640000x128, .f32⟩
  | 78 => ⟨S_, .f32⟩
  | 79 => ⟨S100000x128, .f32⟩
  | 80 => ⟨S640000x1, .i32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S100000x1, .f32⟩
  | 90 => ⟨S100000x128, .f32⟩
  | 91 => ⟨S100000x128, .f32⟩
  | 92 => ⟨S_, .i32⟩
  | 93 => ⟨S640000, .i32⟩
  | 94 => ⟨S640000, .i1⟩
  | 95 => ⟨S_, .i32⟩
  | 96 => ⟨S640000, .i32⟩
  | 97 => ⟨S640000, .i32⟩
  | 98 => ⟨S640000, .i32⟩
  | 99 => ⟨S640000x1, .i32⟩
  | 100 => ⟨S640000, .f32⟩
  | 101 => ⟨S640000x1, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000x128, .f32⟩
  | 111 => ⟨S640000x128, .f32⟩
  | 112 => ⟨S640000x128, .f32⟩
  | 113 => ⟨S_, .f32⟩
  | 114 => ⟨S40000x128, .f32⟩
  | 115 => ⟨S640000x1, .i32⟩
  | 116 => ⟨S40000x128, .f32⟩
  | 117 => ⟨S_, .f32⟩
  | 118 => ⟨S40000x128, .f32⟩
  | 119 => ⟨S40000x128, .f32⟩
  | 120 => ⟨S40000x128, .f32⟩
  | 121 => ⟨S1x128, .f32⟩
  | 122 => ⟨S40000x128, .f32⟩
  | 123 => ⟨S40000x128, .f32⟩
  | 124 => ⟨S40000x1, .f32⟩
  | 125 => ⟨S40000x128, .f32⟩
  | 126 => ⟨S40000x128, .f32⟩
  | 127 => ⟨S_, .i32⟩
  | _ => ⟨S100000x128, .f32⟩

abbrev hbmTy0_1 (i : Nat) : BufTy := match i % 128 with
  | 0 => ⟨S640000, .i32⟩
  | 1 => ⟨S640000, .i1⟩
  | 2 => ⟨S_, .i32⟩
  | 3 => ⟨S640000, .i32⟩
  | 4 => ⟨S640000, .i32⟩
  | 5 => ⟨S640000, .i32⟩
  | 6 => ⟨S640000x1, .i32⟩
  | 7 => ⟨S640000, .f32⟩
  | 8 => ⟨S640000x1, .f32⟩
  | 9 => ⟨S_, .i32⟩
  | 10 => ⟨S640000, .i32⟩
  | 11 => ⟨S640000, .i1⟩
  | 12 => ⟨S_, .i32⟩
  | 13 => ⟨S640000, .i32⟩
  | 14 => ⟨S640000, .i32⟩
  | 15 => ⟨S640000, .i32⟩
  | 16 => ⟨S640000x1, .i32⟩
  | 17 => ⟨S640000x128, .f32⟩
  | 18 => ⟨S640000x128, .f32⟩
  | 19 => ⟨S640000x128, .f32⟩
  | 20 => ⟨S_, .f32⟩
  | 21 => ⟨S100000x128, .f32⟩
  | 22 => ⟨S640000x1, .i32⟩
  | 23 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call0_cst : Ref sig .tc := ⟨.hbm, 47, rfl⟩
abbrev main_call0_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_3 : Ref sig .tc := ⟨.hbm, 57, rfl⟩
abbrev main_v35 : Ref sig .tc := ⟨.hbm, 58, rfl⟩
abbrev main_v36 : Ref sig .tc := ⟨.hbm, 59, rfl⟩
abbrev main_c_4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_5 : Ref sig .tc := ⟨.hbm, 67, rfl⟩
abbrev main_v43 : Ref sig .tc := ⟨.hbm, 68, rfl⟩
abbrev main_v44 : Ref sig .tc := ⟨.hbm, 69, rfl⟩
abbrev main_c_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_8 : Ref sig .tc := ⟨.hbm, 92, rfl⟩
abbrev main_v63 : Ref sig .tc := ⟨.hbm, 93, rfl⟩
abbrev main_v64 : Ref sig .tc := ⟨.hbm, 94, rfl⟩
abbrev main_c_9 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_10 : Ref sig .tc := ⟨.hbm, 102, rfl⟩
abbrev main_v71 : Ref sig .tc := ⟨.hbm, 103, rfl⟩
abbrev main_v72 : Ref sig .tc := ⟨.hbm, 104, rfl⟩
abbrev main_c_11 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_12 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call2_cst : Ref sig .tc := ⟨.hbm, 117, rfl⟩
abbrev main_call2_v0 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_13 : Ref sig .tc := ⟨.hbm, 127, rfl⟩
abbrev main_v91 : Ref sig .tc := ⟨.hbm, 128, rfl⟩
abbrev main_v92 : Ref sig .tc := ⟨.hbm, 129, rfl⟩
abbrev main_c_14 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_15 : Ref sig .tc := ⟨.hbm, 137, rfl⟩
abbrev main_v99 : Ref sig .tc := ⟨.hbm, 138, rfl⟩
abbrev main_v100 : Ref sig .tc := ⟨.hbm, 139, rfl⟩
abbrev main_c_16 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_17 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S1x128_S40000x128_0_1 : S1x128.BroadcastsInDim S40000x128 (![0, 1] : Fin 2 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S40000_S640000x1_S640000_n_0_n_n_0_1_1_wf : GatherDims.WF S40000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  gather_S100000_S640000x1_S640000_n_0_n_n_0_1_1_wf : GatherDims.WF S100000 S640000x1 S640000 [] [0] [] [0] [] 1 ![1]
  gather_S40000x128_S640000x1_S640000x128_1_0_n_n_0_1_1128_wf : GatherDims.WF S40000x128 S640000x1 S640000x128 [1] [0] [] [0] [] 1 ![1, 128]
  scatter_S100000x128_S640000x1_S640000x128_1_0_0_1_wf : ScatterDims.WF S100000x128 S640000x1 S640000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

class Facts : Prop extends Facts₀ where

variable [Facts]
-- ==== Proof.KerRun.lean ====
/-
  The run of the kernel program with its result named.  The program is five kernel regions among stretches of host
  operations; the buffer contents at each boundary are a fold from the launch memory (after a stretch: its operations
  applied; after a region: the region's arrays at what its write-backs leave).  Every weakly fair execution ends with
  each unscoped buffer at the last boundary's contents: read at the result buffer this names the result, read at an
  argument it gives the argument back.
-/
import proofs.«106235_j31842887533233_2_alg».proof.Proof.FrameKernelIdeal

set_option maxRecDepth 16384

noncomputable section

namespace Cert.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer at the last boundary's contents and
    the fifteen arguments as launched. -/
theorem run_named : θ_run defs (onTc (τ := τ) (main (F := F))) ⟨m, fun _ => 0, ρ⟩ (fun r => ∀ c : Dev nD,
      r.2.mem ((c.tc : Thread nD τ).loc main_v54) = W10 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v54 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.KerRun

end
-- ==== Proof.Hnhn.lean ====
/-
  Hypergraph message passing (node -> hyperedge -> node) written as sums over incidence pairs, on the extended reals.

  An incidence pair p joins a node and a hyperedge.  A layer takes node rows a(r, .) to
      h(r, j)  = beta(r) * (sum_k a(r, k) * W(k, j) + b(j))                       a dense layer with a row scale,
      g(q, j)  = sum over the pairs p whose hyperedge is q of h(node(p), j)          an accumulation over pairs,
      e(q, j)  = alpha(q) * (sum_k max(g(q, k) * s(q), 0) * W'(k, j) + b'(j)),
      o(r, j)  = sum over the pairs p whose node is r of e(edge(p), j).
  The reference scales every message before it is accumulated, by s(edge(p)) in the first accumulation and by
  t(node(p)) in the second; the other program accumulates first and scales the sum, by s(q) before the maximum and by
  t(r) wherever o is consumed.  A pair that is accumulated into row q reads its own scale at row q, so the scale is
  constant on the pairs of one sum; a constant REAL factor leaves a finite sum of REAL terms (on the extended reals
  x * (a + b) = x * a + x * b can fail at infinities, for example for negative x at a = top, b = bot), which is why
  every entry is first shown to be a real number.  Two layers are chained through max(., 0).
-/
import Idealize.ShloMosaic.PureOps.Ideal

noncomputable section

open scoped BigOperators

namespace Cert.Hnhn

/-! ## Extended reals that are real numbers -/

/-- The extended real x is (the image of) a real number. -/
def IsR (x : EReal) : Prop := ∃ r : ℝ, x = (r : EReal)

theorem isR_zero : IsR 0 := ⟨0, EReal.coe_zero.symm⟩

theorem isR_one : IsR 1 := ⟨1, EReal.coe_one.symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.max {x y : EReal} (hx : IsR x) (hy : IsR y) : IsR (max x y) := by
  rcases max_choice x y with h | h
  · rw [h]; exact hx
  · rw [h]; exact hy

/-- A finite sum of real numbers is a real number. -/
theorem isR_sum {ι : Type} (s : Finset ι) (f : ι → EReal) (h : ∀ i ∈ s, IsR (f i)) : IsR (∑ i ∈ s, f i) := by
  classical
  induction s using Finset.induction_on with
  | empty => rw [Finset.sum_empty]; exact isR_zero
  | insert a s ha ih =>
    rw [Finset.sum_insert ha]
    exact (h a (Finset.mem_insert_self a s)).add (ih fun i hi => h i (Finset.mem_insert_of_mem hi))

/-- A real factor distributes over a finite sum of real numbers. -/
theorem mul_sum_real {ι : Type} (s : Finset ι) (c : EReal) (f : ι → EReal) (hc : IsR c) (h : ∀ i ∈ s, IsR (f i)) :
    c * ∑ i ∈ s, f i = ∑ i ∈ s, c * f i := by
  classical
  induction s using Finset.induction_on with
  | empty => rw [Finset.sum_empty, Finset.sum_empty, mul_zero]
  | insert a s ha ih =>
    rw [Finset.sum_insert ha, Finset.sum_insert ha, ← ih (fun i hi => h i (Finset.mem_insert_of_mem hi))]
    obtain ⟨c', rfl⟩ := hc
    obtain ⟨x, hx⟩ := h a (Finset.mem_insert_self a s)
    obtain ⟨y, hy⟩ := isR_sum s f (fun i hi => h i (Finset.mem_insert_of_mem hi))
    rw [hx, hy]
    have e : c' * (x + y) = c' * x + c' * y := by ring
    exact_mod_cast e

/-! ## The two building blocks -/

section Blocks

variable {ρ : Type} {d : ℕ}

/-- A dense layer on rows followed by a scale per row. -/
def lin (a : ρ → Fin d → EReal) (w : Fin d → Fin d → EReal) (b : Fin d → EReal) (post : ρ → EReal) :
    ρ → Fin d → EReal :=
  fun r j => post r * ((∑ k : Fin d, a r k * w k j) + b j)

theorem lin_real (a : ρ → Fin d → EReal) (w : Fin d → Fin d → EReal) (b : Fin d → EReal) (post : ρ → EReal)
    (ha : ∀ r k, IsR (a r k)) (hw : ∀ k j, IsR (w k j)) (hb : ∀ j, IsR (b j)) (hp : ∀ r, IsR (post r)) (r : ρ) (j : Fin d) :
    IsR (lin a w b post r j) :=
  (hp r).mul ((isR_sum _ _ fun k _ => (ha r k).mul (hw k j)).add (hb j))

/-- Rows of messages accumulated by id: row r receives the messages of the pairs whose id is r; the sum starts from 0. -/
def acc {n e : ℕ} (ids : Fin e → ℤ) (u : Fin e → Fin d → EReal) : Fin n → Fin d → EReal :=
  fun r j => 0 + ∑ p : Fin e, if ids p = (r.val : ℤ) then u p j else 0

theorem acc_real {n e : ℕ} (ids : Fin e → ℤ) (u : Fin e → Fin d → EReal) (hu : ∀ p j, IsR (u p j)) (r : Fin n) (j : Fin d) :
    IsR (acc ids u r j) :=
  isR_zero.add (isR_sum _ _ fun p _ => by
    by_cases h : ids p = (r.val : ℤ)
    · rw [if_pos h]; exact hu p j
    · rw [if_neg h]; exact isR_zero)

/-- THE LAW: messages scaled by a factor read at the row the pair is accumulated into. The factor is the same for all
    the pairs of one sum, it is real and so are the messages, so it leaves the sum. -/
theorem acc_scale {n e : ℕ} (ids : Fin e → ℤ) (g : Fin e → Fin n) (hg : ∀ (p : Fin e) (r : Fin n), ids p = (r.val : ℤ) → g p = r)
    (c : Fin n → EReal) (u : Fin e → Fin d → EReal) (hc : ∀ r, IsR (c r)) (hu : ∀ p j, IsR (u p j)) (r : Fin n) (j : Fin d) :
    acc ids (fun p j => c (g p) * u p j) r j = c r * acc ids u r j := by
  unfold acc
  rw [zero_add, zero_add, mul_sum_real _ _ _ (hc r) (fun p _ => by
    by_cases h : ids p = (r.val : ℤ)
    · rw [if_pos h]; exact hu p j
    · rw [if_neg h]; exact isR_zero)]
  refine Finset.sum_congr rfl fun p _ => ?_
  by_cases h : ids p = (r.val : ℤ)
  · rw [if_pos h, if_pos h]
    show c (g p) * u p j = c r * u p j
    rw [hg p r h]
  · rw [if_neg h, if_neg h, mul_zero]

end Blocks

/-! ## One layer, both ways -/

section Layer

variable {n m e d : ℕ}
-- the raw node id and hyperedge id of a pair (the accumulations compare them with a row number),
variable (nid eid : Fin e → ℤ)
-- the node row and hyperedge row a pair's gathers read,
variable (gn : Fin e → Fin n) (ge : Fin e → Fin m)
-- the four degree scales,
variable (Dvb Dva : Fin n → EReal) (Deb Dea : Fin m → EReal)
-- and a layer's two weight matrices and biases.
variable (W : Fin d → Fin d → EReal) (b : Fin d → EReal) (We : Fin d → Fin d → EReal) (be : Fin d → EReal)

/-- Accumulate first: the hyperedge scale Deb meets the accumulated sum (before the maximum), the node scale Dva is
    left to whoever consumes the result. -/
def kconv (a : Fin n → Fin d → EReal) : Fin n → Fin d → EReal :=
  acc nid fun p => lin (fun q k => max (acc eid (fun p' => lin a W b Dvb (gn p')) q k * Deb q) 0) We be Dea (ge p)

/-- Scale first: every message is multiplied by the scale of the row it is accumulated into. -/
def rconv (a : Fin n → Fin d → EReal) : Fin n → Fin d → EReal :=
  acc nid fun p j => Dva (gn p) *
    lin (fun q k => max (acc eid (fun p' j' => Deb (ge p') * lin a W b Dvb (gn p') j') q k) 0) We be Dea (ge p) j

variable (hgn : ∀ (p : Fin e) (r : Fin n), nid p = (r.val : ℤ) → gn p = r)
variable (hge : ∀ (p : Fin e) (q : Fin m), eid p = (q.val : ℤ) → ge p = q)
variable (hDvb : ∀ r, IsR (Dvb r)) (hDva : ∀ r, IsR (Dva r)) (hDeb : ∀ q, IsR (Deb q)) (hDea : ∀ q, IsR (Dea q))
variable (hW : ∀ k j, IsR (W k j)) (hb : ∀ j, IsR (b j)) (hWe : ∀ k j, IsR (We k j)) (hbe : ∀ j, IsR (be j))

include hDvb hDeb hDea hW hb hWe hbe in
/-- On real data every entry of the layer is real. -/
theorem kconv_real (a : Fin n → Fin d → EReal) (ha : ∀ r k, IsR (a r k)) (r : Fin n) (j : Fin d) :
    IsR (kconv nid eid gn ge Dvb Deb Dea W b We be a r j) :=
  acc_real _ _ (fun p j => lin_real _ _ _ _
    (fun q k => ((acc_real _ _ (fun p' j' => lin_real _ _ _ _ ha hW hb hDvb (gn p') j') q k).mul (hDeb q)).max isR_zero)
    hWe hbe hDea (ge p) j) r j

include hgn hge hDvb hDva hDeb hDea hW hb hWe hbe in
/-- On real data, scaling first is accumulating first and scaling the result by the node scale. -/
theorem rconv_eq (a : Fin n → Fin d → EReal) (ha : ∀ r k, IsR (a r k)) (r : Fin n) (j : Fin d) :
    rconv nid eid gn ge Dvb Dva Deb Dea W b We be a r j = Dva r * kconv nid eid gn ge Dvb Deb Dea W b We be a r j := by
  have hh : ∀ p' j', IsR (lin a W b Dvb (gn p') j') := fun p' j' => lin_real _ _ _ _ ha hW hb hDvb (gn p') j'
  have inner : (fun (q : Fin m) (k : Fin d) => max (acc eid (fun p' j' => Deb (ge p') * lin a W b Dvb (gn p') j') q k) 0)
      = fun q k => max (acc eid (fun p' => lin a W b Dvb (gn p')) q k * Deb q) 0 := by
    funext q k
    rw [acc_scale eid ge hge Deb (fun p' => lin a W b Dvb (gn p')) hDeb hh q k, mul_comm]
  unfold rconv kconv
  rw [inner]
  exact acc_scale nid gn hgn Dva _ hDva (fun p j => lin_real _ _ _ _
    (fun q k => ((acc_real _ _ hh q k).mul (hDeb q)).max isR_zero) hWe hbe hDea (ge p) j) r j

end Layer

/-! ## Two layers -/

section Net

variable {n m e d : ℕ}
variable (nid eid : Fin e → ℤ) (gn : Fin e → Fin n) (ge : Fin e → Fin m)
variable (Dvb Dva : Fin n → EReal) (Deb Dea : Fin m → EReal)
variable (W1 : Fin d → Fin d → EReal) (b1 : Fin d → EReal) (W1e : Fin d → Fin d → EReal) (b1e : Fin d → EReal)
variable (W2 : Fin d → Fin d → EReal) (b2 : Fin d → EReal) (W2e : Fin d → Fin d → EReal) (b2e : Fin d → EReal)

/-- The reference: a layer, max(., 0), a layer; every message scaled before it is accumulated. -/
def refOut (x : Fin n → Fin d → EReal) : Fin n → Fin d → EReal :=
  rconv nid eid gn ge Dvb Dva Deb Dea W2 b2 W2e b2e fun r k =>
    max (rconv nid eid gn ge Dvb Dva Deb Dea W1 b1 W1e b1e x r k) 0

/-- The other program: the first layer's input multiplied by a row of ones, the first layer's node scale applied
    inside the second layer's input (before the maximum), the second layer's node scale applied at the very end. -/
def kernelOut (one : Fin n → EReal) (x : Fin n → Fin d → EReal) : Fin n → Fin d → EReal :=
  fun r j => Dva r * kconv nid eid gn ge Dvb Deb Dea W2 b2 W2e b2e (fun r' k =>
    max (kconv nid eid gn ge Dvb Deb Dea W1 b1 W1e b1e (fun r'' k' => x r'' k' * one r'') r' k * Dva r') 0) r j

variable (hgn : ∀ (p : Fin e) (r : Fin n), nid p = (r.val : ℤ) → gn p = r)
variable (hge : ∀ (p : Fin e) (q : Fin m), eid p = (q.val : ℤ) → ge p = q)
variable (hDvb : ∀ r, IsR (Dvb r)) (hDva : ∀ r, IsR (Dva r)) (hDeb : ∀ q, IsR (Deb q)) (hDea : ∀ q, IsR (Dea q))
variable (hW1 : ∀ k j, IsR (W1 k j)) (hb1 : ∀ j, IsR (b1 j)) (hW1e : ∀ k j, IsR (W1e k j)) (hb1e : ∀ j, IsR (b1e j))
variable (hW2 : ∀ k j, IsR (W2 k j)) (hb2 : ∀ j, IsR (b2 j)) (hW2e : ∀ k j, IsR (W2e k j)) (hb2e : ∀ j, IsR (b2e j))

include hgn hge hDvb hDva hDeb hDea hW1 hb1 hW1e hb1e hW2 hb2 hW2e hb2e in
/-- On real data the two programs compute the same array. -/
theorem refOut_eq_kernelOut (one : Fin n → EReal) (hone : ∀ r, one r = 1) (x : Fin n → Fin d → EReal) (hx : ∀ r k, IsR (x r k))
    (r : Fin n) (j : Fin d) :
    refOut nid eid gn ge Dvb Dva Deb Dea W1 b1 W1e b1e W2 b2 W2e b2e x r j
      = kernelOut nid eid gn ge Dvb Dva Deb Dea W1 b1 W1e b1e W2 b2 W2e b2e one x r j := by
  have hx1 : (fun (r'' : Fin n) (k' : Fin d) => x r'' k' * one r'') = x := by
    funext r'' k'; rw [hone r'', mul_one]
  have mid : (fun (r' : Fin n) (k : Fin d) => max (rconv nid eid gn ge Dvb Dva Deb Dea W1 b1 W1e b1e x r' k) 0)
      = fun r' k => max (kconv nid eid gn ge Dvb Deb Dea W1 b1 W1e b1e x r' k * Dva r') 0 := by
    funext r' k
    rw [rconv_eq nid eid gn ge Dvb Dva Deb Dea W1 b1 W1e b1e hgn hge hDvb hDva hDeb hDea hW1 hb1 hW1e hb1e x hx r' k, mul_comm]
  unfold refOut kernelOut
  rw [hx1, mid]
  exact rconv_eq nid eid gn ge Dvb Dva Deb Dea W2 b2 W2e b2e hgn hge hDvb hDva hDeb hDea hW2 hb2 hW2e hb2e _
    (fun r' k => ((kconv_real nid eid gn ge Dvb Deb Dea W1 b1 W1e b1e hDvb hDeb hDea hW1 hb1 hW1e hb1e x hx r' k).mul (hDva r')).max isR_zero) r j

end Net

end Cert.Hnhn

end
-- ==== Proof.LibRowOps.lean ====
/-
  Row-indexed scatter and gather of a matrix, read at an index.

  An accumulating scatter of the rows of an `[e, f]` matrix of updates into an `[n, f]` operand, at one row id per
  update row (the index array `[e, 1]`, each id read as a signed integer, an id outside `[0, n)` dropping its row), is,
  at entry `(r, c)`, the operand there plus the sum over the update rows `k` whose id is `r` of update `(k, c)`.
  A gather of whole rows of an `[n, f]` operand (or of entries of a flat `[n]` operand) at one row id per result row
  reads, at result row `k`, the operand's row `clampRow (id k)`: the id read as a signed integer and clamped into
  `[0, n - 1]`. All three are generic in the extents.
-/
import Idealize.ShloMosaic.PureOps.Ideal
import Idealize.ShloMosaic.Lib.ValueIdx
import Idealize.ShloMosaic.Lib.Pipeline.Value

noncomputable section

namespace Idealize.ShloMosaic.RowOps

open Idealize.ShloMosaic Idealize.ShloMosaic.ValueIdx
open scoped BigOperators

/-- A row id read as a signed integer and clamped into `[0, n - 1]`. -/
def clampRow (n : Nat) (hn : 0 < n) {w : Nat} (x : BitVec w) : Fin n := ⟨min x.toInt.toNat (n - 1), by omega⟩

/-! ## The row scatter -/

/-- The dimension numbers of a scatter of update rows `[e, f]` into an operand `[n, f]` at indices `[e, 1]`: the
    feature axis is the window axis, the operand's row axis inserted and indexed by the index vector's one component. -/
abbrev rowsDims (n e f : Nat) (wf : ScatterDims.WF ⟨2, ![n, f]⟩ ⟨2, ![e, 1]⟩ ⟨2, ![e, f]⟩ [1] [0] [0] 1) :
    ScatterDims ⟨2, ![n, f]⟩ ⟨2, ![e, 1]⟩ ⟨2, ![e, f]⟩ where
  updateWindowDims := [1]
  insertedWindowDims := [0]
  scatterDimsToOperandDims := [0]
  indexVectorDim := 1
  wf := wf

section Rows
variable {n e f w : Nat} (wf : ScatterDims.WF ⟨2, ![n, f]⟩ ⟨2, ![e, 1]⟩ ⟨2, ![e, f]⟩ [1] [0] [0] 1)

/-- On the row axis update `j` starts at the id of its row; -/
theorem rows_start0 (j : (⟨2, ![e, f]⟩ : Shape).Idx) (idx : IVec ⟨2, ![e, 1]⟩ w) :
    (rowsDims n e f wf).start j idx 0 = (idx (ix2 (j 0) 0)).toInt := by
  unfold ScatterDims.start
  rw [dif_pos (show (0 : Fin 2) ∈ (rowsDims n e f wf).scatterDimsToOperandDims from List.mem_singleton.mpr rfl)]
  have hsi : (rowsDims n e f wf).siIdx j ⟨List.idxOf (0 : Fin 2) (rowsDims n e f wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- on the feature axis at `0`. -/
theorem rows_start1 (j : (⟨2, ![e, f]⟩ : Shape).Idx) (idx : IVec ⟨2, ![e, 1]⟩ w) :
    (rowsDims n e f wf).start j idx 1 = 0 := by
  unfold ScatterDims.start
  rw [dif_neg (show ¬ (1 : Fin 2) ∈ ([0] : List (Fin 2)) by decide)]

/-- The row axis is inserted: no window coordinate there; -/
theorem rows_window0 (j : (⟨2, ![e, f]⟩ : Shape).Idx) : (rowsDims n e f wf).window j 0 = 0 := by
  unfold ScatterDims.window
  rw [dif_neg (fun h => by
    have h2 := (List.mem_filter.mp h).2
    simp at h2)]

/-- the feature axis carries the update's column coordinate. -/
theorem rows_window1 (j : (⟨2, ![e, f]⟩ : Shape).Idx) : (rowsDims n e f wf).window j 1 = (j 1).val := by
  unfold ScatterDims.window
  rw [dif_pos (show (1 : Fin 2) ∈ (rowsDims n e f wf).sKept from
    List.mem_filter.mpr ⟨List.mem_finRange _, by simp⟩)]
  rfl

/-- Update `j` lands on position `i` exactly when its row's id is `i`'s row and its column is `i`'s column. -/
theorem rows_resultIdx (j : (⟨2, ![e, f]⟩ : Shape).Idx) (idx : IVec ⟨2, ![e, 1]⟩ w) (i : (⟨2, ![n, f]⟩ : Shape).Idx) :
    (rowsDims n e f wf).resultIdx? j idx = some i
      ↔ (idx (ix2 (j 0) 0)).toInt = ((i 0).val : ℤ) ∧ (j 1).val = (i 1).val := by
  unfold ScatterDims.resultIdx?
  split_ifs with h
  · rw [Option.some.injEq]
    constructor
    · intro hi
      have h0 := (h 0).1
      rw [← hi]
      constructor
      · show _ = (((rowsDims n e f wf).start j idx 0 + ((rowsDims n e f wf).window j 0 : ℕ)).toNat : ℤ)
        rw [Int.toNat_of_nonneg h0, rows_start0, rows_window0]; simp
      · show _ = ((rowsDims n e f wf).start j idx 1 + ((rowsDims n e f wf).window j 1 : ℕ)).toNat
        rw [rows_start1, rows_window1]; simp
    · rintro ⟨hi0, hi1⟩
      funext a
      refine Fin.ext ?_
      match a with
      | ⟨0, _⟩ =>
        show ((rowsDims n e f wf).start j idx 0 + ((rowsDims n e f wf).window j 0 : ℕ)).toNat = (i 0).val
        rw [rows_start0, rows_window0, hi0]; simp
      | ⟨1, _⟩ =>
        show ((rowsDims n e f wf).start j idx 1 + ((rowsDims n e f wf).window j 1 : ℕ)).toNat = (i 1).val
        rw [rows_start1, rows_window1, hi1]; simp
  · constructor
    · intro hi; exact absurd hi (by simp)
    · rintro ⟨hi0, hi1⟩
      exfalso; apply h
      intro a
      match a with
      | ⟨0, _⟩ =>
        show 0 ≤ (rowsDims n e f wf).start j idx 0 + ((rowsDims n e f wf).window j 0 : ℕ)
          ∧ (rowsDims n e f wf).start j idx 0 + ((rowsDims n e f wf).window j 0 : ℕ) < ((⟨2, ![n, f]⟩ : Shape).size 0 : ℕ)
        rw [rows_start0, rows_window0, hi0]
        have := (i 0).isLt
        constructor <;> omega
      | ⟨1, _⟩ =>
        show 0 ≤ (rowsDims n e f wf).start j idx 1 + ((rowsDims n e f wf).window j 1 : ℕ)
          ∧ (rowsDims n e f wf).start j idx 1 + ((rowsDims n e f wf).window j 1 : ℕ) < ((⟨2, ![n, f]⟩ : Shape).size 1 : ℕ)
        rw [rows_start1, rows_window1, hi1]
        have := (i 1).isLt
        constructor <;> omega

end Rows

/-- THE ROW SCATTER READ AT `(r, c)`: the operand there plus column `c` of the update rows whose id is `r`. -/
theorem rows_apply {n e f w : Nat} (wf : ScatterDims.WF ⟨2, ![n, f]⟩ ⟨2, ![e, 1]⟩ ⟨2, ![e, f]⟩ [1] [0] [0] 1)
    (x : (⟨2, ![n, f]⟩ : Shape).Idx → EReal) (idx : IVec ⟨2, ![e, 1]⟩ w)
    (upd : (⟨2, ![e, f]⟩ : Shape).Idx → EReal) (r : Fin n) (c : Fin f) :
    Ideal.hostScatterAdd (rowsDims n e f wf) x idx upd (ix2 r c)
      = x (ix2 r c) + ∑ k : Fin e, if (idx (ix2 k (0 : Fin 1))).toInt = (r.val : ℤ) then upd (ix2 k c) else 0 := by
  unfold Ideal.hostScatterAdd
  refine congrArg (x (ix2 r c) + ·) ?_
  rw [Finset.sum_filter, sum_idx2]
  refine Finset.sum_congr rfl fun k _ => ?_
  by_cases h : (idx (ix2 k (0 : Fin 1))).toInt = (r.val : ℤ)
  · rw [if_pos h, Finset.sum_eq_single c]
    · exact if_pos ((rows_resultIdx wf (ix2 k c) idx (ix2 r c)).mpr ⟨h, rfl⟩)
    · intro b _ hb
      exact if_neg fun hr => hb (Fin.ext ((rows_resultIdx wf (ix2 k b) idx (ix2 r c)).mp hr).2)
    · intro hc; exact absurd (Finset.mem_univ c) hc
  · rw [if_neg h]
    refine Finset.sum_eq_zero fun b _ => ?_
    exact if_neg fun hr => h ((rows_resultIdx wf (ix2 k b) idx (ix2 r c)).mp hr).1

/-! ## The gathers -/

/-- The dimension numbers of a gather of entries of a flat operand `[n]` at indices `[e, 1]` into `[e]`. -/
abbrev vecGatherDims (n e : Nat) (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- THE FLAT GATHER READ AT `k`: the operand at the clamped id of row `k`. -/
theorem vecGather_apply {α : Type} {n e w : Nat} (hn : 0 < n)
    (wf : GatherDims.WF ⟨1, ![n]⟩ ⟨2, ![e, 1]⟩ ⟨1, ![e]⟩ [] [0] [] [0] [] 1 ![1])
    (x : (⟨1, ![n]⟩ : Shape).Idx → α) (idx : IVec ⟨2, ![e, 1]⟩ w) (k : Fin e) :
    Host.gather (vecGatherDims n e wf) x idx (ix1 k) = x (ix1 (clampRow n hn (idx (ix2 k (0 : Fin 1))))) := by
  unfold Host.gather
  congr 1
  funext a
  obtain rfl : a = 0 := Subsingleton.elim _ _
  refine Fin.ext ?_
  show (vecGatherDims n e wf).start (ix1 k) idx 0 + (vecGatherDims n e wf).batchCoord (ix1 k) 0
    + (vecGatherDims n e wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n e wf).startIndexMap from List.mem_singleton.mpr rfl)]
  have hsi : (vecGatherDims n e wf).siIdx (ix1 k) ⟨List.idxOf (0 : Fin 1) (vecGatherDims n e wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-- The dimension numbers of a gather of whole rows of an operand `[n, f]` at indices `[e, 1]` into `[e, f]`. -/
abbrev rowGatherDims (n e f : Nat) (wf : GatherDims.WF ⟨2, ![n, f]⟩ ⟨2, ![e, 1]⟩ ⟨2, ![e, f]⟩ [1] [0] [] [0] [] 1 ![1, f]) :
    GatherDims ⟨2, ![n, f]⟩ ⟨2, ![e, 1]⟩ ⟨2, ![e, f]⟩ where
  offsetDims := [1]
  collapsedSliceDims := [0]
  operandBatchingDims := []
  startIndicesBatchingDims := []
  startIndexMap := [0]
  indexVectorDim := 1
  sliceSizes := ![1, f]
  wf := wf

/-- THE ROW GATHER READ AT `(k, c)`: column `c` of the operand's row at the clamped id of row `k`. -/
theorem rowGather_apply {α : Type} {n e f w : Nat} (hn : 0 < n)
    (wf : GatherDims.WF ⟨2, ![n, f]⟩ ⟨2, ![e, 1]⟩ ⟨2, ![e, f]⟩ [1] [0] [] [0] [] 1 ![1, f])
    (x : (⟨2, ![n, f]⟩ : Shape).Idx → α) (idx : IVec ⟨2, ![e, 1]⟩ w) (k : Fin e) (c : Fin f) :
    Host.gather (rowGatherDims n e f wf) x idx (ix2 k c) = x (ix2 (clampRow n hn (idx (ix2 k (0 : Fin 1)))) c) := by
  unfold Host.gather
  congr 1
  funext a
  refine Fin.ext ?_
  match a with
  | ⟨0, _⟩ =>
    show (rowGatherDims n e f wf).start (ix2 k c) idx 0 + (rowGatherDims n e f wf).batchCoord (ix2 k c) 0
      + (rowGatherDims n e f wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e f wf).startIndexMap from List.mem_singleton.mpr rfl)]
    have hsi : (rowGatherDims n e f wf).siIdx (ix2 k c) ⟨List.idxOf (0 : Fin 2) (rowGatherDims n e f wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowGatherDims n e f wf).start (ix2 k c) idx 1 + (rowGatherDims n e f wf).batchCoord (ix2 k c) 1
      + (rowGatherDims n e f wf).offCoord (ix2 k c) 1 = c.val
    rw [GatherDims.batchCoord_eq_zero _ _ _ List.not_mem_nil]
    have hs : (rowGatherDims n e f wf).start (ix2 k c) idx 1 = 0 := by
      unfold GatherDims.start
      rw [dif_neg (show ¬ (1 : Fin 2) ∈ ([0] : List (Fin 2)) by decide)]
    have ho : (rowGatherDims n e f wf).offCoord (ix2 k c) 1 = c.val := by
      unfold GatherDims.offCoord
      rw [dif_pos (show (1 : Fin 2) ∈ (rowGatherDims n e f wf).sKept from
        (GatherDims.mem_sKept _ _).mpr
          ⟨(show ¬ (1 : Fin 2) ∈ ([0] : List (Fin 2)) by decide), List.not_mem_nil⟩)]
      rfl
    rw [hs, ho, Nat.zero_add]

end Idealize.ShloMosaic.RowOps

end
-- ==== Proof.LibScaleSum.lean ====
/-
  A nonnegative real factor and a guarded finite sum of extended reals.

  On the extended reals a product does not distribute over a sum in general (`⊤ + ⊥`), but a NONNEGATIVE REAL factor
  does: `(∑ a) * x = ∑ (a * x)`. So a sum of terms `a e * s e` over the rows `e` selected by a predicate, scaled
  afterwards by one factor `d`, is the sum of the terms `a e * (s e * t e)` whenever `t e = d` on the selected rows.
  The factor met here is an inverse square root of one plus a count, which is such a real. Two words: the bit
  pattern `0x3F800000` is the real `1`; and a 32-bit word that is nonnegative as a signed integer is left alone by
  the wrap-around `if w < 0 then w + n else w`.
-/
import Idealize.ShloMosaic.PureOps.Ideal
import Idealize.ShloMosaic.Lib.ValueIdx

noncomputable section

namespace Idealize.ShloMosaic.ScaleSum

open Idealize.ShloMosaic Idealize.ShloMosaic.ValueIdx
open scoped BigOperators

/-- A nonnegative real factor distributes over a finite sum of extended reals. -/
theorem sum_mul_of_nonneg {ι : Type*} (s : Finset ι) (a : ι → EReal) {x : ℝ} (hx : 0 ≤ x) :
    (∑ i ∈ s, a i) * (x : EReal) = ∑ i ∈ s, a i * (x : EReal) := by
  classical
  refine Finset.induction_on s ?_ ?_
  · rw [Finset.sum_empty, Finset.sum_empty, zero_mul]
  · intro i s hi ih
    rw [Finset.sum_insert hi, Finset.sum_insert hi,
      EReal.right_distrib_of_nonneg_of_ne_top (EReal.coe_nonneg.mpr hx) (EReal.coe_ne_top x), ih]

/-- THE LAW: the selected rows' terms `a e * s e` summed (onto `0`) and then scaled by `d` are the selected rows'
    terms `a e * (s e * t e)` summed, when `d` is a nonnegative real and `t e = d` on every selected row. -/
theorem scaled_sum_law {E : ℕ} (P : Fin E → Prop) [DecidablePred P] (a s t : Fin E → EReal) (d : EReal)
    (hd : ∃ x : ℝ, 0 ≤ x ∧ d = (x : EReal)) (ht : ∀ e, P e → t e = d) :
    ((0 : EReal) + ∑ e : Fin E, if P e then a e * s e else 0) * d
      = (0 : EReal) + ∑ e : Fin E, if P e then a e * (s e * t e) else 0 := by
  obtain ⟨x, hx, rfl⟩ := hd
  rw [zero_add, zero_add, sum_mul_of_nonneg Finset.univ _ hx]
  refine Finset.sum_congr rfl fun e _ => ?_
  by_cases hP : P e
  · rw [if_pos hP, if_pos hP, ht e hP, mul_assoc]
  · rw [if_neg hP, if_neg hP, zero_mul]

/-- The inverse square root of one plus a count (a sum of ones over the selected rows, onto `0`) is a nonnegative real. -/
theorem rsqrt_count {E : ℕ} (P : Fin E → Prop) [DecidablePred P] :
    ∃ x : ℝ, 0 ≤ x ∧ Ideal.rsqrt (((0 : EReal) + ∑ e : Fin E, if P e then (1 : EReal) else 0) + 1) = (x : EReal) := by
  -- the sum of ones over the selected rows is the (real) number of selected rows
  have hsum : (∑ e : Fin E, if P e then (1 : EReal) else 0)
      = (((Finset.univ.filter P).card : ℝ) : EReal) := by
    rw [Finset.sum_boole]; rfl
  have hpos : (0 : ℝ) < ((Finset.univ.filter P).card : ℝ) + 1 := by positivity
  refine ⟨(Real.sqrt (((Finset.univ.filter P).card : ℝ) + 1))⁻¹, inv_nonneg.mpr (Real.sqrt_nonneg _), ?_⟩
  rw [zero_add, hsum, ← EReal.coe_one, ← EReal.coe_add, Ideal.rsqrt_coe,
    if_neg (not_lt.mpr hpos.le), if_neg hpos.ne']

/-- The single-precision bit pattern of one is the real `1`. -/
theorem ofBits_one : Ideal.ofBits .f32 0x3F800000#32 = (1 : EReal) := by
  simp [Ideal.ofBits, Ideal.ieee, -EReal.coe_mul]; norm_num

/-- A word that is nonnegative as a signed integer is left alone by the wrap-around of negative indices. -/
theorem wrap_of_nonneg (w n : BitVec 32) (h : 0 ≤ w.toInt) :
    Scalar.select (IntOp.cmpi .slt w 0#32) (IntOp.addi w n) w = w := by
  have hs : w.slt 0#32 = false := by
    simp only [BitVec.slt, BitVec.toInt_zero, decide_eq_false_iff_not, not_lt]
    exact h
  unfold IntOp.cmpi
  simp only [hs]
  exact select_zero _ _

end Idealize.ShloMosaic.ScaleSum

end
-- ==== Proof.Arr.lean ====
/-
  Arrays read as rows.  A matrix array [R, C] is read at its coordinates as a function of a row and a column, a flat
  array [R] as a function of a row.  An incidence list is an array of 32-bit words, one per pair: a word read as a signed
  integer is the pair's id (an accumulation compares it with the row number, so an id outside the rows contributes
  nowhere), and the row a gather reads for the pair is the id with a negative value wrapped round by the number of
  rows and the result clamped into the rows.  When the id IS a row number neither the wrap nor the clamp changes it:
  a pair accumulated into row r gathers at row r.  With these readings the two programs' results are the two
  functions of Hnhn.lean at the argument arrays.
-/
import Idealize.ShloMosaic.Lib.ValueIdx
import Idealize.ShloMosaic.PureOps.Ideal.Laws
import proofs.«106235_j31842887533233_2_alg».proof.Proof.Hnhn
import proofs.«106235_j31842887533233_2_alg».proof.Proof.LibRowOps
import proofs.«106235_j31842887533233_2_alg».proof.Proof.LibScaleSum

noncomputable section

namespace Cert.Hnhn

open Idealize.ShloMosaic Idealize.ShloMosaic.ValueIdx Idealize.ShloMosaic.RowOps

/-- A matrix array as a function of row and column. -/
def mat {R C : ℕ} (A : (⟨2, ![R, C]⟩ : Shape).Idx → EReal) : Fin R → Fin C → EReal := fun r c => A (ix2 r c)

/-- A flat array as a function of the row. -/
def vec {R : ℕ} (v : (⟨1, ![R]⟩ : Shape).Idx → EReal) : Fin R → EReal := fun r => v (ix1 r)

/-- The id of pair p: its word read as a signed integer. -/
def rawId {e : ℕ} (ids : IVec ⟨1, ![e]⟩ 32) : Fin e → ℤ := fun p => (ids (ix1 p)).toInt

/-- The wrap of a negative index on one word: x + n when x < 0, else x. -/
def wrapW (n x : BitVec 32) : BitVec 32 := Scalar.select (IntOp.cmpi .slt x 0#32) (IntOp.addi x n) x

/-- The row a gather reads for pair p: the wrapped id, clamped into the rows. -/
def gRow (n : ℕ) (hn : 0 < n) (nw : BitVec 32) {e : ℕ} (ids : IVec ⟨1, ![e]⟩ 32) : Fin e → Fin n :=
  fun p => clampRow n hn (wrapW nw (ids (ix1 p)))

/-- A pair whose id is the row number r gathers at row r. -/
theorem gRow_of_id (n : ℕ) (hn : 0 < n) (nw : BitVec 32) {e : ℕ} (ids : IVec ⟨1, ![e]⟩ 32) (p : Fin e) (r : Fin n)
    (h : rawId ids p = (r.val : ℤ)) : gRow n hn nw ids p = r := by
  unfold gRow wrapW
  have h' : (ids (ix1 p)).toInt = (r.val : ℤ) := h
  rw [ScaleSum.wrap_of_nonneg _ _ (by rw [h']; exact Int.natCast_nonneg _)]
  refine Fin.ext ?_
  show min (ids (ix1 p)).toInt.toNat (n - 1) = r.val
  rw [h', Int.toNat_natCast]
  have := r.isLt
  omega

/-- The single-precision word 0 is the real 0 and the word 0x3F800000 the real 1. -/
theorem ofBits_zero : Ideal.ofBits .f32 0x00000000#32 = (0 : EReal) := Ideal.ofBits_zero_f32

theorem ofBits_one : Ideal.ofBits .f32 0x3F800000#32 = (1 : EReal) := ScaleSum.ofBits_one

/-! ## The two results at the argument arrays -/

section Results

variable (x : (⟨2, ![100000, 128]⟩ : Shape).Idx → EReal)
variable (Dvb : (⟨1, ![100000]⟩ : Shape).Idx → EReal) (Deb Dea : (⟨1, ![40000]⟩ : Shape).Idx → EReal)
variable (Dva : (⟨1, ![100000]⟩ : Shape).Idx → EReal)
variable (W1 : (⟨2, ![128, 128]⟩ : Shape).Idx → EReal) (b1 : (⟨1, ![128]⟩ : Shape).Idx → EReal)
variable (W1e : (⟨2, ![128, 128]⟩ : Shape).Idx → EReal) (b1e : (⟨1, ![128]⟩ : Shape).Idx → EReal)
variable (W2 : (⟨2, ![128, 128]⟩ : Shape).Idx → EReal) (b2 : (⟨1, ![128]⟩ : Shape).Idx → EReal)
variable (W2e : (⟨2, ![128, 128]⟩ : Shape).Idx → EReal) (b2e : (⟨1, ![128]⟩ : Shape).Idx → EReal)
variable (node edge : IVec ⟨1, ![640000]⟩ 32)

/-- The reference's result, entry (r, j), from the fifteen argument arrays in the order of the programs' parameters. -/
def refSpec : Fin 100000 → Fin 128 → EReal :=
  refOut (rawId node) (rawId edge) (gRow 100000 (by decide) 100000#32 node) (gRow 40000 (by decide) 40000#32 edge)
    (vec Dvb) (vec Dva) (vec Deb) (vec Dea) (mat W1) (vec b1) (mat W1e) (vec b1e) (mat W2) (vec b2) (mat W2e) (vec b2e) (mat x)

/-- The kernel program's result, entry (r, j), from the same arrays. -/
def kerSpec : Fin 100000 → Fin 128 → EReal :=
  kernelOut (rawId node) (rawId edge) (gRow 100000 (by decide) 100000#32 node) (gRow 40000 (by decide) 40000#32 edge)
    (vec Dvb) (vec Dva) (vec Deb) (vec Dea) (mat W1) (vec b1) (mat W1e) (vec b1e) (mat W2) (vec b2) (mat W2e) (vec b2e)
    (fun _ => Ideal.ofBits .f32 0x3F800000#32) (mat x)

/-- When every float argument is real the two are equal. -/
theorem refSpec_eq_kerSpec
    (hx : ∀ i, IsR (x i)) (hDvb : ∀ i, IsR (Dvb i)) (hDeb : ∀ i, IsR (Deb i)) (hDea : ∀ i, IsR (Dea i)) (hDva : ∀ i, IsR (Dva i))
    (hW1 : ∀ i, IsR (W1 i)) (hb1 : ∀ i, IsR (b1 i)) (hW1e : ∀ i, IsR (W1e i)) (hb1e : ∀ i, IsR (b1e i))
    (hW2 : ∀ i, IsR (W2 i)) (hb2 : ∀ i, IsR (b2 i)) (hW2e : ∀ i, IsR (W2e i)) (hb2e : ∀ i, IsR (b2e i))
    (r : Fin 100000) (j : Fin 128) :
    refSpec x Dvb Deb Dea Dva W1 b1 W1e b1e W2 b2 W2e b2e node edge r j
      = kerSpec x Dvb Deb Dea Dva W1 b1 W1e b1e W2 b2 W2e b2e node edge r j :=
  refOut_eq_kernelOut _ _ _ _ _ _ _ _ _ _ _ _ _ _ _ _
    (fun p r h => gRow_of_id 100000 (by decide) 100000#32 node p r h)
    (fun p q h => gRow_of_id 40000 (by decide) 40000#32 edge p q h)
    (fun r => hDvb _) (fun r => hDva _) (fun q => hDeb _) (fun q => hDea _)
    (fun k j => hW1 _) (fun j => hb1 _) (fun k j => hW1e _) (fun j => hb1e _)
    (fun k j => hW2 _) (fun j => hb2 _) (fun k j => hW2e _) (fun j => hb2e _)
    _ (fun _ => ofBits_one) (mat x) (fun r k => hx _) r j

end Results

end Cert.Hnhn

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.RefValue.lean ====
/-
  The reference program's result, entry by entry, is the two-layer hypergraph network of Hnhn.lean at the argument arrays.

  First the stages of a layer on the host are read at the coordinates (row, column) of their results, generically in the
  extents: a column of row scales laid along the rows, a dense layer followed by the row scale, an id vector made into a
  column (plain, or with negative ids wrapped round), a gathered row multiplied by a gathered scale, and an accumulating
  scatter of rows into an array of zeros.  Then the stages of the program are read one after the other with them: the
  node-to-hyperedge half of a layer (dense layer with the node scale, one message per incidence pair scaled by the scale of
  the pair's hyperedge, accumulation by hyperedge id, maximum with 0) and its hyperedge-to-node half (dense layer with the
  hyperedge scale, one message per pair scaled by the scale of the pair's node, accumulation by node id).  The second layer
  is the first layer's operations over again, applied to the maximum of the first layer's result and 0.
-/
import proofs.«106235_j31842887533233_2_alg».proof.Proof.Gen.ReferenceIdeal.Read
import proofs.«106235_j31842887533233_2_alg».proof.Proof.Arr
import proofs.«106235_j31842887533233_2_alg».proof.Proof.LibDense
import Idealize.ShloMosaic.Lib.ValueIdx
import Idealize.ShloMosaic.Lib.Pipeline.Value
import Idealize.ShloMosaic.PureOps.Ideal.Laws

noncomputable section

open scoped BigOperators

namespace Cert.RefSide

open Cert.ReferenceIdeal Cert.ReferenceIdeal.Gen Cert.ReferenceIdeal.Read
open Idealize.ShloMosaic Idealize.ShloMosaic.TcCoe Idealize.ShloMosaic.ValueIdx Idealize.ShloMosaic.RowOps Cert.Hnhn

/-! ## The stages of a layer, generic in the extents -/

/-- A vector made into a column and the column repeated along each row reads, at (r, j), the vector at r. -/
theorem col_rows_apply {α : Type} {A d : ℕ} (s : (⟨1, ![A]⟩ : Shape).Idx → α)
    (h1 : (⟨1, ![A]⟩ : Shape).BroadcastsInDim ⟨2, ![A, 1]⟩ ![0])
    (h2 : (⟨2, ![A, 1]⟩ : Shape).BroadcastsInDim ⟨2, ![A, d]⟩ ![0, 1]) (r : Fin A) (j : Fin d) :
    broadcastInDim ⟨2, ![A, d]⟩ ![0, 1] h2 (broadcastInDim ⟨2, ![A, 1]⟩ ![0] h1 s) (ix2 r j) = s (ix1 r) := by
  refine (broadcastInDim_apply ![0, 1] h2 _ (ix2 r j) (ix2 r (0 : Fin 1)) ?_).trans ?_
  · intro a
    match a with
    | ⟨0, _⟩ =>
      show r.val = if A = 1 then 0 else r.val
      split
      · have := r.isLt; omega
      · rfl
    | ⟨1, _⟩ => rfl
  · refine broadcastInDim_apply ![0] h1 s (ix2 r (0 : Fin 1)) (ix1 r) ?_
    intro a
    match a with
    | ⟨0, _⟩ =>
      show r.val = if A = 1 then 0 else r.val
      split
      · have := r.isLt; omega
      · rfl

/-- A vector made into a column reads, at (k, 0), the vector at k. -/
theorem col_apply {α : Type} {e : ℕ} (v : (⟨1, ![e]⟩ : Shape).Idx → α)
    (h1 : (⟨1, ![e]⟩ : Shape).BroadcastsInDim ⟨2, ![e, 1]⟩ ![0]) (k : Fin e) :
    broadcastInDim ⟨2, ![e, 1]⟩ ![0] h1 v (ix2 k (0 : Fin 1)) = v (ix1 k) := by
  refine broadcastInDim_apply ![0] h1 v (ix2 k (0 : Fin 1)) (ix1 k) ?_
  intro a
  match a with
  | ⟨0, _⟩ =>
    show k.val = if e = 1 then 0 else k.val
    split
    · have := k.isLt; omega
    · rfl

/-- The dense layer followed by the row scale: entry (r, j) is the scale of row r times the dense layer's entry. -/
theorem lin_read {A d : ℕ} (x : FVec Ideal ⟨2, ![A, d]⟩ .f32) (w : FVec Ideal ⟨2, ![d, d]⟩ .f32)
    (b : FVec Ideal ⟨1, ![d]⟩ .f32) (s : FVec Ideal ⟨1, ![A]⟩ .f32)
    (hd : (⟨1, ![d]⟩ : Shape).BroadcastsInDim ⟨2, ![1, d]⟩ ![1])
    (hbc : (⟨2, ![1, d]⟩ : Shape).BroadcastsInDim ⟨2, ![A, d]⟩ ![0, 1])
    (h1 : (⟨1, ![A]⟩ : Shape).BroadcastsInDim ⟨2, ![A, 1]⟩ ![0])
    (h2 : (⟨2, ![A, 1]⟩ : Shape).BroadcastsInDim ⟨2, ![A, d]⟩ ![0, 1]) (r : Fin A) (j : Fin d) :
    mulf (broadcastInDim ⟨2, ![A, d]⟩ ![0, 1] h2 (broadcastInDim ⟨2, ![A, 1]⟩ ![0] h1 s))
        (addf (Host.dotGeneral (DotDims.plain A d d) none x w)
          (broadcastInDim ⟨2, ![A, d]⟩ ![0, 1] hbc (broadcastInDim ⟨2, ![1, d]⟩ ![1] hd b))) (ix2 r j)
      = lin (mat x) (mat w) (vec b) (vec s) r j := by
  rw [Cert.LibDense.dense_host x w b hd hbc, mulf_apply, col_rows_apply s h1 h2 r j]
  rfl

/-- The id vector with its negative ids wrapped round by nw, made into a column, reads at (k, 0) the wrapped id of k. -/
theorem wrap_col_apply {e : ℕ} (ids : IVec ⟨1, ![e]⟩ 32) (nw : BitVec 32)
    (h0 : (⟨0, ![]⟩ : Shape).BroadcastsInDim ⟨1, ![e]⟩ (![] : Fin 0 → Fin 1))
    (h1 : (⟨1, ![e]⟩ : Shape).BroadcastsInDim ⟨2, ![e, 1]⟩ ![0]) (k : Fin e) :
    broadcastInDim ⟨2, ![e, 1]⟩ ![0] h1
        (select (cmpi .slt ids (broadcastInDim ⟨1, ![e]⟩ ![] h0 (constantI ⟨0, ![]⟩ 32 0#32)))
          (addi ids (broadcastInDim ⟨1, ![e]⟩ ![] h0 (constantI ⟨0, ![]⟩ 32 nw))) ids) (ix2 k (0 : Fin 1))
      = wrapW nw (ids (ix1 k)) := by
  rw [col_apply _ h1 k]
  rfl

/-- A message: the row of h at the gathered row id, times the scale at the gathered scale id. -/
theorem msg_read {n m e d : ℕ} (hn : 0 < n) (hm : 0 < m)
    (wfv : GatherDims.WF ⟨1, ![m]⟩ ⟨2, ![e, 1]⟩ ⟨1, ![e]⟩ [] [0] [] [0] [] 1 ![1])
    (wfr : GatherDims.WF ⟨2, ![n, d]⟩ ⟨2, ![e, 1]⟩ ⟨2, ![e, d]⟩ [1] [0] [] [0] [] 1 ![1, d])
    (h1 : (⟨1, ![e]⟩ : Shape).BroadcastsInDim ⟨2, ![e, 1]⟩ ![0])
    (h2 : (⟨2, ![e, 1]⟩ : Shape).BroadcastsInDim ⟨2, ![e, d]⟩ ![0, 1])
    (sc : FVec Ideal ⟨1, ![m]⟩ .f32) (si : IVec ⟨2, ![e, 1]⟩ 32)
    (h : FVec Ideal ⟨2, ![n, d]⟩ .f32) (gi : IVec ⟨2, ![e, 1]⟩ 32) (p : Fin e) (j : Fin d) :
    mulf (broadcastInDim ⟨2, ![e, d]⟩ ![0, 1] h2 (broadcastInDim ⟨2, ![e, 1]⟩ ![0] h1 (Host.gather (vecGatherDims m e wfv) sc si)))
        (Host.gather (rowGatherDims n e d wfr) h gi) (ix2 p j)
      = sc (ix1 (clampRow m hm (si (ix2 p (0 : Fin 1))))) * h (ix2 (clampRow n hn (gi (ix2 p (0 : Fin 1)))) j) := by
  rw [mulf_apply, col_rows_apply _ h1 h2 p j, vecGather_apply hm wfv sc si p, rowGather_apply hn wfr h gi p j]

/-- Rows accumulated by id into an array of zeros: entry (r, j) is 0 plus the sum of column j of the rows whose id is r. -/
theorem acc_read {n e d : ℕ} (wf : ScatterDims.WF ⟨2, ![n, d]⟩ ⟨2, ![e, 1]⟩ ⟨2, ![e, d]⟩ [1] [0] [0] 1)
    (h0 : (⟨0, ![]⟩ : Shape).BroadcastsInDim ⟨2, ![n, d]⟩ (![] : Fin 0 → Fin 2))
    (idc : IVec ⟨2, ![e, 1]⟩ 32) (upd : FVec Ideal ⟨2, ![e, d]⟩ .f32) (r : Fin n) (j : Fin d) :
    Host.scatterAdd (F := Ideal) (rowsDims n e d wf)
        (broadcastInDim ⟨2, ![n, d]⟩ ![] h0 (constant (F := Ideal) ⟨0, ![]⟩ .f32 0x00000000#32)) idc upd (ix2 r j)
      = 0 + ∑ p : Fin e, if (idc (ix2 p (0 : Fin 1))).toInt = (r.val : ℤ) then upd (ix2 p j) else 0 := by
  show Ideal.hostScatterAdd (rowsDims n e d wf) _ idc upd (ix2 r j) = _
  rw [rows_apply wf _ idc upd r j]
  refine congrArg (· + _) ?_
  exact ofBits_zero

/-! ## The first layer's stages -/

section Layer

variable (x0 : (⟨2, ![100000, 128]⟩ : Shape).Idx → EReal) (x1 : (⟨1, ![100000]⟩ : Shape).Idx → EReal)
variable (x2 x3 : (⟨1, ![40000]⟩ : Shape).Idx → EReal) (x4 : (⟨1, ![100000]⟩ : Shape).Idx → EReal)
variable (x5 : (⟨2, ![128, 128]⟩ : Shape).Idx → EReal) (x6 : (⟨1, ![128]⟩ : Shape).Idx → EReal)
variable (x7 : (⟨2, ![128, 128]⟩ : Shape).Idx → EReal) (x8 : (⟨1, ![128]⟩ : Shape).Idx → EReal)
variable (x13 x14 : IVec ⟨1, ![640000]⟩ 32)

/-- The node row a pair's gathers read, and the hyperedge row. -/
abbrev gN : Fin 640000 → Fin 100000 := gRow 100000 (by decide) 100000#32 x13
abbrev gM : Fin 640000 → Fin 40000 := gRow 40000 (by decide) 40000#32 x14

/-- The dense layer on the node rows with the node scale. -/
theorem v6_read (r : Fin 100000) (j : Fin 128) :
    val_main_v6 (F := Ideal) x0 x1 x5 x6 (ix2 r j) = lin (mat x0) (mat x5) (vec x6) (vec x1) r j := by
  unfold val_main_v6 val_main_v5 val_main_v4 val_main_v3 val_main_v2 val_main_v1 val_main_v0
  exact lin_read x0 x5 x6 x1 _ _ _ _ r j

/-- The hyperedge ids wrapped, as a column. -/
theorem v12_read (p : Fin 640000) :
    val_main_v12 (F := Ideal) x14 (ix2 p (0 : Fin 1)) = wrapW 40000#32 (x14 (ix1 p)) := by
  unfold val_main_v12 val_main_v11 val_main_v10 val_main_v9 val_main_c_0 val_main_v8 val_main_v7 val_main_c
  exact wrap_col_apply x14 40000#32 _ _ p

/-- The node ids wrapped, as a column. -/
theorem v20_read (p : Fin 640000) :
    val_main_v20 (F := Ideal) x13 (ix2 p (0 : Fin 1)) = wrapW 100000#32 (x13 (ix1 p)) := by
  unfold val_main_v20 val_main_v19 val_main_v18 val_main_v17 val_main_c_2 val_main_v16 val_main_v15 val_main_c_1
  exact wrap_col_apply x13 100000#32 _ _ p

/-- The message of pair p: its node's row of the dense layer, scaled by its hyperedge's scale. -/
theorem v23_read (p : Fin 640000) (j : Fin 128) :
    val_main_v23 (F := Ideal) x0 x1 x2 x5 x6 x13 x14 (ix2 p j)
      = vec x2 (gM x14 p) * lin (mat x0) (mat x5) (vec x6) (vec x1) (gN x13 p) j := by
  unfold val_main_v23 val_main_v22 val_main_v21 val_main_v14 val_main_v13
  refine (msg_read (n := 100000) (m := 40000) (by decide) (by decide) _ _ _ _ x2 (val_main_v12 (F := Ideal) x14)
    (val_main_v6 (F := Ideal) x0 x1 x5 x6) (val_main_v20 (F := Ideal) x13) p j).trans ?_
  rw [v12_read x14 p, v20_read x13 p, v6_read]
  rfl

/-- The messages accumulated by hyperedge id. -/
theorem v26_read (q : Fin 40000) (k : Fin 128) :
    val_main_v26 (F := Ideal) x0 x1 x2 x5 x6 x13 x14 (ix2 q k)
      = acc (rawId x14) (fun p j' => vec x2 (gM x14 p) * lin (mat x0) (mat x5) (vec x6) (vec x1) (gN x13 p) j') q k := by
  unfold val_main_v26 val_main_v24 val_main_cst val_main_v25
  refine (acc_read _ _ _ (val_main_v23 (F := Ideal) x0 x1 x2 x5 x6 x13 x14) q k).trans ?_
  unfold acc
  refine congrArg (0 + ·) (Finset.sum_congr rfl fun p _ => ?_)
  rw [col_apply x14 _ p, v23_read]
  rfl

/-- Their maximum with 0. -/
theorem v27_read (q : Fin 40000) (k : Fin 128) :
    val_main_v27 (F := Ideal) x0 x1 x2 x5 x6 x13 x14 (ix2 q k)
      = max (acc (rawId x14) (fun p j' => vec x2 (gM x14 p) * lin (mat x0) (mat x5) (vec x6) (vec x1) (gN x13 p) j') q k) 0 := by
  unfold val_main_v27 val_main_call0_v0 val_main_call0_cst
  rw [maximumf_apply, v26_read]
  exact congrArg (max _) ofBits_zero

/-- The dense layer on the hyperedge rows with the hyperedge scale. -/
theorem v34_read (q : Fin 40000) (j : Fin 128) :
    val_main_v34 (F := Ideal) x0 x1 x2 x3 x5 x6 x7 x8 x13 x14 (ix2 q j)
      = lin (fun q k => max (acc (rawId x14)
          (fun p j' => vec x2 (gM x14 p) * lin (mat x0) (mat x5) (vec x6) (vec x1) (gN x13 p) j') q k) 0)
          (mat x7) (vec x8) (vec x3) q j := by
  unfold val_main_v34 val_main_v33 val_main_v32 val_main_v31 val_main_v30 val_main_v29 val_main_v28
  refine (lin_read (val_main_v27 (F := Ideal) x0 x1 x2 x5 x6 x13 x14) x7 x8 x3 _ _ _ _ q j).trans ?_
  have hm : mat (val_main_v27 (F := Ideal) x0 x1 x2 x5 x6 x13 x14)
      = fun q k => max (acc (rawId x14)
          (fun p j' => vec x2 (gM x14 p) * lin (mat x0) (mat x5) (vec x6) (vec x1) (gN x13 p) j') q k) 0 :=
    funext fun q => funext fun k => v27_read x0 x1 x2 x5 x6 x13 x14 q k
  rw [hm]

/-- The node ids wrapped, as a column (second half). -/
theorem v40_read (p : Fin 640000) :
    val_main_v40 (F := Ideal) x13 (ix2 p (0 : Fin 1)) = wrapW 100000#32 (x13 (ix1 p)) := by
  unfold val_main_v40 val_main_v39 val_main_v38 val_main_v37 val_main_c_4 val_main_v36 val_main_v35 val_main_c_3
  exact wrap_col_apply x13 100000#32 _ _ p

/-- The hyperedge ids wrapped, as a column (second half). -/
theorem v48_read (p : Fin 640000) :
    val_main_v48 (F := Ideal) x14 (ix2 p (0 : Fin 1)) = wrapW 40000#32 (x14 (ix1 p)) := by
  unfold val_main_v48 val_main_v47 val_main_v46 val_main_v45 val_main_c_6 val_main_v44 val_main_v43 val_main_c_5
  exact wrap_col_apply x14 40000#32 _ _ p

/-- The second half's message of pair p: its hyperedge's row of the dense layer, scaled by its node's scale. -/
theorem v51_read (p : Fin 640000) (j : Fin 128) :
    val_main_v51 (F := Ideal) x0 x1 x2 x3 x4 x5 x6 x7 x8 x13 x14 (ix2 p j)
      = vec x4 (gN x13 p) * lin (fun q k => max (acc (rawId x14)
          (fun p' j' => vec x2 (gM x14 p') * lin (mat x0) (mat x5) (vec x6) (vec x1) (gN x13 p') j') q k) 0)
          (mat x7) (vec x8) (vec x3) (gM x14 p) j := by
  unfold val_main_v51 val_main_v50 val_main_v49 val_main_v42 val_main_v41
  refine (msg_read (n := 40000) (m := 100000) (by decide) (by decide) _ _ _ _ x4 (val_main_v40 (F := Ideal) x13)
    (val_main_v34 (F := Ideal) x0 x1 x2 x3 x5 x6 x7 x8 x13 x14) (val_main_v48 (F := Ideal) x14) p j).trans ?_
  rw [v40_read x13 p, v48_read x14 p, v34_read]
  rfl

/-- The layer: the second half's messages accumulated by node id. -/
theorem layer_read (r : Fin 100000) (j : Fin 128) :
    val_main_v54 (F := Ideal) x0 x1 x2 x3 x4 x5 x6 x7 x8 x13 x14 (ix2 r j)
      = rconv (rawId x13) (rawId x14) (gN x13) (gM x14) (vec x1) (vec x4) (vec x2) (vec x3)
          (mat x5) (vec x6) (mat x7) (vec x8) (mat x0) r j := by
  unfold val_main_v54 val_main_v52 val_main_cst_7 val_main_v53
  refine (acc_read _ _ _ (val_main_v51 (F := Ideal) x0 x1 x2 x3 x4 x5 x6 x7 x8 x13 x14) r j).trans ?_
  refine congrArg (0 + ·) (Finset.sum_congr rfl fun p _ => ?_)
  rw [col_apply x13 _ p, v51_read]
  rfl

end Layer

/-! ## Two layers -/

section Net

variable (x0 : (⟨2, ![100000, 128]⟩ : Shape).Idx → EReal) (x1 : (⟨1, ![100000]⟩ : Shape).Idx → EReal)
variable (x2 x3 : (⟨1, ![40000]⟩ : Shape).Idx → EReal) (x4 : (⟨1, ![100000]⟩ : Shape).Idx → EReal)
variable (x5 : (⟨2, ![128, 128]⟩ : Shape).Idx → EReal) (x6 : (⟨1, ![128]⟩ : Shape).Idx → EReal)
variable (x7 : (⟨2, ![128, 128]⟩ : Shape).Idx → EReal) (x8 : (⟨1, ![128]⟩ : Shape).Idx → EReal)
variable (x9 : (⟨2, ![128, 128]⟩ : Shape).Idx → EReal) (x10 : (⟨1, ![128]⟩ : Shape).Idx → EReal)
variable (x11 : (⟨2, ![128, 128]⟩ : Shape).Idx → EReal) (x12 : (⟨1, ![128]⟩ : Shape).Idx → EReal)
variable (x13 x14 : IVec ⟨1, ![640000]⟩ 32)

/-- The first layer's result, maximum with 0. -/
theorem v55_read (r : Fin 100000) (k : Fin 128) :
    val_main_v55 (F := Ideal) x0 x1 x2 x3 x4 x5 x6 x7 x8 x13 x14 (ix2 r k)
      = max (rconv (rawId x13) (rawId x14) (gN x13) (gM x14) (vec x1) (vec x4) (vec x2) (vec x3)
          (mat x5) (vec x6) (mat x7) (vec x8) (mat x0) r k) 0 := by
  unfold val_main_v55 val_main_call1_v0 val_main_call1_cst
  rw [maximumf_apply, layer_read]
  exact congrArg (max _) ofBits_zero

/-- The second layer's operations are the first layer's, applied to the first layer's result after the maximum. -/
theorem second_layer :
    val_main_v110 (F := Ideal) x0 x1 x2 x3 x4 x5 x6 x7 x8 x9 x10 x11 x12 x13 x14
      = val_main_v54 (F := Ideal) (val_main_v55 (F := Ideal) x0 x1 x2 x3 x4 x5 x6 x7 x8 x13 x14) x1 x2 x3 x4 x9 x10 x11 x12 x13 x14 :=
  rfl

/-- The program's result at (r, j). -/
theorem out_read (r : Fin 100000) (j : Fin 128) :
    val_main_v110 (F := Ideal) x0 x1 x2 x3 x4 x5 x6 x7 x8 x9 x10 x11 x12 x13 x14 (ix2 r j)
      = refSpec x0 x1 x2 x3 x4 x5 x6 x7 x8 x9 x10 x11 x12 x13 x14 r j := by
  rw [second_layer, layer_read]
  have hm : mat (val_main_v55 (F := Ideal) x0 x1 x2 x3 x4 x5 x6 x7 x8 x13 x14)
      = fun r k => max (rconv (rawId x13) (rawId x14) (gN x13) (gM x14) (vec x1) (vec x4) (vec x2) (vec x3)
          (mat x5) (vec x6) (mat x7) (vec x8) (mat x0) r k) 0 :=
    funext fun r => funext fun k => v55_read x0 x1 x2 x3 x4 x5 x6 x7 x8 x13 x14 r k
  rw [hm]
  rfl

end Net

/-- THE REFERENCE'S RESULT, entry (r, j), is the two-layer network at the fifteen argument arrays. -/
theorem ref_value (m : (ℓ : Loc nD τ sig) → Buf (Elt Ideal) ℓ) (c : Dev nD) (r : Fin 100000) (j : Fin 128) :
    Cert.ReferenceIdeal.Value.res_main_v110 (F := Ideal) m c (ix2 r j)
      = Cert.Hnhn.refSpec (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) (m ((c.tc : Thread nD τ).loc main_arg14)) r j := by
  rw [Cert.ReferenceIdeal.Read.val_main_v110_eq]
  exact out_read _ _ _ _ _ _ _ _ _ _ _ _ _ _ _ r j

end Cert.RefSide

end
-- ==== Proof.KerArgs.lean ====
/-
  The argument arrays at every boundary of the kernel program.  No host operation writes an argument and no region has
  one among its output arrays... more precisely: a buffer that is outside the list of the buffers the host operations
  write, and that is none of the arrays of the first four regions, holds at each of the nine inner boundaries what it
  held at the launch.
-/
import proofs.«106235_j31842887533233_2_alg».proof.Proof.FrameKernelIdeal

set_option maxRecDepth 16384

noncomputable section

namespace Cert.KerArgs

open Cert.KernelIdeal Cert.KernelIdeal.Gen
open Idealize.ShloMosaic Idealize.ShloMosaic.TcCoe
open Idealize.SL Idealize.SL.Sem

variable {F : FTy → Type} [FloatOps F]

/-- Every buffer some host operation of the program writes. -/
def written : List (Ref sig .tc) :=
  [main_cst, main_v0, main_v1, main_v2, main_c, main_v4, main_v5, main_c_0, main_v6, main_v7, main_v8, main_v9, main_v10, main_cst_1, main_v11, main_v12, main_v13, main_v14, main_v15, main_c_2, main_v17, main_v18, main_c_3, main_v19, main_v20, main_v21, main_v22, main_v23, main_cst_4, main_v24, main_v25, main_v26, main_v27, main_v28, main_c_5, main_v30, main_v31, main_c_6, main_v32, main_v33, main_v34, main_v35, main_v36, main_cst_7, main_v37, main_v38, main_v39, main_v40, main_v41, main_c_8, main_v43, main_v44, main_c_9, main_v45, main_v46, main_v47, main_v48, main_v49, main_cst_10, main_v50, main_v51, main_v52, main_v53]

theorem hW0 : (hostOps0 : List (HloOp τ sig (Elt F))).Forall fun op => op.writes ⊆ (written.map (Proc.devRef (τ := τ) .tc)).toFinset := by
  simp only [hostOps0, List.Forall, StableHlo.nullary_writes, StableHlo.unary_writes, StableHlo.binary_writes, StableHlo.ternary_writes,
    StableHlo.quaternary_writes, StableHlo.reshape_writes, StableHlo.binaryIndexed_writes]
  repeat' apply And.intro
  all_goals exact Finset.singleton_subset_iff.mpr (List.mem_toFinset.mpr (List.mem_map.mpr ⟨_, by decide, rfl⟩))

theorem hW1 : (hostOps1 : List (HloOp τ sig (Elt F))).Forall fun op => op.writes ⊆ (written.map (Proc.devRef (τ := τ) .tc)).toFinset := by
  simp only [hostOps1, List.Forall, StableHlo.nullary_writes, StableHlo.unary_writes, StableHlo.binary_writes, StableHlo.ternary_writes,
    StableHlo.quaternary_writes, StableHlo.reshape_writes, StableHlo.binaryIndexed_writes]
  repeat' apply And.intro
  all_goals exact Finset.singleton_subset_iff.mpr (List.mem_toFinset.mpr (List.mem_map.mpr ⟨_, by decide, rfl⟩))

theorem hW2 : (hostOps2 : List (HloOp τ sig (Elt F))).Forall fun op => op.writes ⊆ (written.map (Proc.devRef (τ := τ) .tc)).toFinset := by
  simp only [hostOps2, List.Forall, StableHlo.nullary_writes, StableHlo.unary_writes, StableHlo.binary_writes, StableHlo.ternary_writes,
    StableHlo.quaternary_writes, StableHlo.reshape_writes, StableHlo.binaryIndexed_writes]
  repeat' apply And.intro
  all_goals exact Finset.singleton_subset_iff.mpr (List.mem_toFinset.mpr (List.mem_map.mpr ⟨_, by decide, rfl⟩))

theorem hW3 : (hostOps3 : List (HloOp τ sig (Elt F))).Forall fun op => op.writes ⊆ (written.map (Proc.devRef (τ := τ) .tc)).toFinset := by
  simp only [hostOps3, List.Forall, StableHlo.nullary_writes, StableHlo.unary_writes, StableHlo.binary_writes, StableHlo.ternary_writes,
    StableHlo.quaternary_writes, StableHlo.reshape_writes, StableHlo.binaryIndexed_writes]
  repeat' apply And.intro
  all_goals exact Finset.singleton_subset_iff.mpr (List.mem_toFinset.mpr (List.mem_map.mpr ⟨_, by decide, rfl⟩))

theorem hW4 : (hostOps4 : List (HloOp τ sig (Elt F))).Forall fun op => op.writes ⊆ (written.map (Proc.devRef (τ := τ) .tc)).toFinset := by
  simp only [hostOps4, List.Forall, StableHlo.nullary_writes, StableHlo.unary_writes, StableHlo.binary_writes, StableHlo.ternary_writes,
    StableHlo.quaternary_writes, StableHlo.reshape_writes, StableHlo.binaryIndexed_writes]
  repeat' apply And.intro
  all_goals exact Finset.singleton_subset_iff.mpr (List.mem_toFinset.mpr (List.mem_map.mpr ⟨_, by decide, rfl⟩))

variable (m : (ℓ : Loc nD τ sig) → Buf (Elt F) ℓ) (ρ : Dev nD → PrngReg)

/-- A buffer no host operation writes holds its launch contents when region 0 is entered. -/
theorem kept1 (r : Ref sig .tc) (hr : r ∉ written) (c : Dev nD) : W1 m ρ c (Proc.devRef .tc r) = m ((c : Thread nD τ).loc r) :=
  (StableHlo.after_of_writes_sub hostOps0 (W0 m ρ c) hW0 hr).trans rfl

/-- If it is also no array of region 0, still so when region 1 is entered. -/
theorem kept3 (r : Ref sig .tc) (hr : r ∉ written) (k0 : ∀ w, Pipeline.arrRef spec0 w ≠ r) (c : Dev nD) :
    W2 m ρ c (Proc.devRef .tc r) = m ((c : Thread nD τ).loc r) ∧ W3 m ρ c (Proc.devRef .tc r) = m ((c : Thread nD τ).loc r) := by
  have e2 : W2 m ρ c (Proc.devRef .tc r) = m ((c : Thread nD τ).loc r) := (W2_of_ne m ρ c r k0).trans (kept1 m ρ r hr c)
  exact ⟨e2, (StableHlo.after_of_writes_sub hostOps1 (W2 m ρ c) hW1 hr).trans e2⟩

/-- If it is no array of regions 0 and 1, still so when region 2 is entered. -/
theorem kept5 (r : Ref sig .tc) (hr : r ∉ written) (k0 : ∀ w, Pipeline.arrRef spec0 w ≠ r) (k1 : ∀ w, Pipeline.arrRef spec1 w ≠ r)
    (c : Dev nD) : W4 m ρ c (Proc.devRef .tc r) = m ((c : Thread nD τ).loc r) ∧ W5 m ρ c (Proc.devRef .tc r) = m ((c : Thread nD τ).loc r) := by
  have e4 : W4 m ρ c (Proc.devRef .tc r) = m ((c : Thread nD τ).loc r) := (W4_of_ne m ρ c r k1).trans (kept3 m ρ r hr k0 c).2
  exact ⟨e4, (StableHlo.after_of_writes_sub hostOps2 (W4 m ρ c) hW2 hr).trans e4⟩

/-- If it is no array of regions 0 to 2, still so when region 3 is entered. -/
theorem kept7 (r : Ref sig .tc) (hr : r ∉ written) (k0 : ∀ w, Pipeline.arrRef spec0 w ≠ r) (k1 : ∀ w, Pipeline.arrRef spec1 w ≠ r)
    (k2 : ∀ w, Pipeline.arrRef spec2 w ≠ r) (c : Dev nD) : W6 m ρ c (Proc.devRef .tc r) = m ((c : Thread nD τ).loc r) ∧ W7 m ρ c (Proc.devRef .tc r) = m ((c : Thread nD τ).loc r) := by
  have e6 : W6 m ρ c (Proc.devRef .tc r) = m ((c : Thread nD τ).loc r) := (W6_of_ne m ρ c r k2).trans (kept5 m ρ r hr k0 k1 c).2
  exact ⟨e6, (StableHlo.after_of_writes_sub hostOps3 (W6 m ρ c) hW3 hr).trans e6⟩

/-- If it is no array of regions 0 to 3, still so when region 4 is entered. -/
theorem kept9 (r : Ref sig .tc) (hr : r ∉ written) (k0 : ∀ w, Pipeline.arrRef spec0 w ≠ r) (k1 : ∀ w, Pipeline.arrRef spec1 w ≠ r)
    (k2 : ∀ w, Pipeline.arrRef spec2 w ≠ r) (k3 : ∀ w, Pipeline.arrRef spec3 w ≠ r) (c : Dev nD) : W8 m ρ c (Proc.devRef .tc r) = m ((c : Thread nD τ).loc r) ∧ W9 m ρ c (Proc.devRef .tc r) = m ((c : Thread nD τ).loc r) := by
  have e8 : W8 m ρ c (Proc.devRef .tc r) = m ((c : Thread nD τ).loc r) := (W8_of_ne m ρ c r k3).trans (kept7 m ρ r hr k0 k1 k2 c).2
  exact ⟨e8, (StableHlo.after_of_writes_sub hostOps4 (W8 m ρ c) hW4 hr).trans e8⟩

end Cert.KerArgs

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.HostStage.lean ====
import proofs.«106235_j31842887533233_2_alg».proof.Proof.Arr
import proofs.«106235_j31842887533233_2_alg».proof.Proof.LibLayout
import Idealize.ShloMosaic.Lib.ValueIdx
import Idealize.ShloMosaic.Lib.Pipeline.Value
import Idealize.ShloMosaic.PureOps.Ideal.Laws

/-!
  One accumulation stage read at an entry.

  A stage gathers one row of a source matrix per incidence pair and adds the gathered rows into the rows of a zero
  matrix, each at the row named by the pair's second id.  The gather index of a pair is its first id, wrapped round by
  the number of source rows when negative, and the gather clamps it into the rows; the accumulation reads the second id
  as a signed integer and compares it with the row number.  Both index lists are flat arrays viewed as one-column
  matrices.  Read at entry (q, j) the stage is therefore
      0 + sum over the pairs p whose second id is q of source (row of p, j).
-/

noncomputable section

namespace Cert.HostStage

open Idealize.ShloMosaic Idealize.ShloMosaic.ValueIdx Idealize.ShloMosaic.RowOps Cert.Hnhn
open scoped BigOperators

/-- A flat array [e] laid along axis 0 of the column [e, 1] reads, at (k, 0), the array at k. -/
theorem col_apply {α : Type} {e : ℕ} (hc : (⟨1, ![e]⟩ : Shape).BroadcastsInDim ⟨2, ![e, 1]⟩ (![0] : Fin 1 → Fin 2))
    (v : (⟨1, ![e]⟩ : Shape).Idx → α) (k : Fin e) (u : Fin 1) :
    broadcastInDim ⟨2, ![e, 1]⟩ ![0] hc v (ix2 k u) = v (ix1 k) := by
  refine broadcastInDim_apply ![0] hc v (ix2 k u) (ix1 k) fun a => ?_
  match a with
  | ⟨0, _⟩ =>
    show k.val = if e = 1 then 0 else k.val
    split
    · have := k.isLt; omega
    · rfl

/-- The wrapped index list at pair k: the comparison with the repeated word 0, the sum with the repeated word nw and
    the choice between them, each taken at k, are the wrap of the one word gids k. -/
theorem wrap_apply {e : ℕ} (nw : BitVec 32)
    (hs : (⟨0, ![]⟩ : Shape).BroadcastsInDim ⟨1, ![e]⟩ (![] : Fin 0 → Fin 1)) (gids : IVec ⟨1, ![e]⟩ 32) (k : Fin e) :
    select (cmpi .slt gids (broadcastInDim ⟨1, ![e]⟩ ![] hs (constantI ⟨0, ![]⟩ 32 0#32)))
        (addi gids (broadcastInDim ⟨1, ![e]⟩ ![] hs (constantI ⟨0, ![]⟩ 32 nw))) gids (ix1 k)
      = wrapW nw (gids (ix1 k)) := rfl

/-- The row a stage gathers for pair k, through the column view of the wrapped index list. -/
theorem gatherRow_apply {n e : ℕ} (hn : 0 < n) (nw : BitVec 32)
    (wfG : GatherDims.WF ⟨2, ![n, 128]⟩ ⟨2, ![e, 1]⟩ ⟨2, ![e, 128]⟩ [1] [0] [] [0] [] 1 ![1, 128])
    (hc : (⟨1, ![e]⟩ : Shape).BroadcastsInDim ⟨2, ![e, 1]⟩ (![0] : Fin 1 → Fin 2))
    (hs : (⟨0, ![]⟩ : Shape).BroadcastsInDim ⟨1, ![e]⟩ (![] : Fin 0 → Fin 1))
    (src : FVec Ideal ⟨2, ![n, 128]⟩ .f32) (gids : IVec ⟨1, ![e]⟩ 32) (k : Fin e) (j : Fin 128) :
    Host.gather (rowGatherDims n e 128 wfG) src (broadcastInDim ⟨2, ![e, 1]⟩ ![0] hc
        (select (cmpi .slt gids (broadcastInDim ⟨1, ![e]⟩ ![] hs (constantI ⟨0, ![]⟩ 32 0#32)))
                (addi gids (broadcastInDim ⟨1, ![e]⟩ ![] hs (constantI ⟨0, ![]⟩ 32 nw))) gids)) (ix2 k j)
      = mat src (gRow n hn nw gids k) j := by
  rw [rowGather_apply hn, col_apply, wrap_apply]
  rfl

/-- THE STAGE READ AT (q, j). -/
theorem seg_apply {n m e : ℕ} (hn : 0 < n) (nw : BitVec 32)
    (wfS : ScatterDims.WF ⟨2, ![m, 128]⟩ ⟨2, ![e, 1]⟩ ⟨2, ![e, 128]⟩ [1] [0] [0] 1)
    (wfG : GatherDims.WF ⟨2, ![n, 128]⟩ ⟨2, ![e, 1]⟩ ⟨2, ![e, 128]⟩ [1] [0] [] [0] [] 1 ![1, 128])
    (hz : (⟨0, ![]⟩ : Shape).BroadcastsInDim ⟨2, ![m, 128]⟩ (![] : Fin 0 → Fin 2))
    (hc : (⟨1, ![e]⟩ : Shape).BroadcastsInDim ⟨2, ![e, 1]⟩ (![0] : Fin 1 → Fin 2))
    (hs : (⟨0, ![]⟩ : Shape).BroadcastsInDim ⟨1, ![e]⟩ (![] : Fin 0 → Fin 1))
    (src : FVec Ideal ⟨2, ![n, 128]⟩ .f32) (gids sids : IVec ⟨1, ![e]⟩ 32) (q : Fin m) (j : Fin 128) :
    Host.scatterAdd (F := Ideal) (rowsDims m e 128 wfS)
        (broadcastInDim ⟨2, ![m, 128]⟩ ![] hz (constant (F := Ideal) ⟨0, ![]⟩ .f32 0x00000000#32))
        (broadcastInDim ⟨2, ![e, 1]⟩ ![0] hc sids)
        (Host.gather (rowGatherDims n e 128 wfG) src (broadcastInDim ⟨2, ![e, 1]⟩ ![0] hc
          (select (cmpi .slt gids (broadcastInDim ⟨1, ![e]⟩ ![] hs (constantI ⟨0, ![]⟩ 32 0#32)))
                  (addi gids (broadcastInDim ⟨1, ![e]⟩ ![] hs (constantI ⟨0, ![]⟩ 32 nw))) gids))) (ix2 q j)
      = acc (rawId sids) (fun p => mat src (gRow n hn nw gids p)) q j := by
  refine (rows_apply wfS _ _ _ q j).trans ?_
  unfold acc
  refine congrArg₂ (· + ·) ofBits_zero (Finset.sum_congr rfl fun k _ => ?_)
  rw [col_apply, gatherRow_apply hn]
  rfl

/-- A flat array of one repeated word, viewed as a column, reads that word. -/
theorem col_of_ones {a : ℕ} (w : BitVec 32) (hs : (⟨0, ![]⟩ : Shape).BroadcastsInDim ⟨1, ![a]⟩ (![] : Fin 0 → Fin 1))
    (h : (⟨1, ![a]⟩ : Shape).ShapeCasts ⟨2, ![a, 1]⟩) (r : Fin a) :
    shapeCast ⟨2, ![a, 1]⟩ (broadcastInDim ⟨1, ![a]⟩ ![] hs (constant (F := Ideal) ⟨0, ![]⟩ .f32 w)) h (ix2 r (0 : Fin 1))
      = Ideal.ofBits .f32 w := rfl

end Cert.HostStage

end
-- ==== Proof.KerHost.lean ====
import proofs.«106235_j31842887533233_2_alg».proof.Proof.FrameKernelIdeal
import proofs.«106235_j31842887533233_2_alg».proof.Proof.HostStage
import proofs.«106235_j31842887533233_2_alg».proof.Proof.Arr
import proofs.«106235_j31842887533233_2_alg».proof.Proof.LibLayout

/-!
  The host operations between the regions, read at an entry.

  Between two regions the program runs a short list of array operations.  Each list is read here over ARBITRARY
  buffer contents W at its entry: what a result buffer holds afterwards is the operations' composed function of W's
  buffers, and that function is read at an index.  A list of the second kind builds one accumulation stage (gather a
  source row per incidence pair at the pair's wrapped first id, add the rows into a zero matrix at the pair's second
  id) and views one or two flat scale arrays as columns; the first list builds a column of the word for the real 1
  and views one scale array as a column.
-/

set_option maxRecDepth 16384

noncomputable section

namespace Cert.KerHost

open Cert.KernelIdeal Cert.KernelIdeal.Gen
open Idealize.ShloMosaic Idealize.ShloMosaic.TcCoe Idealize.ShloMosaic.ValueIdx Cert.Hnhn

/-! ## The first stretch: the column of ones and the first scale as a column -/

theorem host0_v1 (W : Valuation τ sig (Elt Ideal)) (r : Fin 100000) :
    StableHlo.after hostOps0 W (Proc.devRef .tc main_v1) (ix2 r (0 : Fin 1)) = Ideal.ofBits .f32 0x3F800000#32 := by
  refine Eq.trans (congrFun ?_ _)
    (HostStage.col_of_ones (a := 100000) 0x3F800000#32 bcast_S_S100000 shapeCasts_S100000_S100000x1 r)
  after_results
  rfl

theorem host0_v2 (W : Valuation τ sig (Elt Ideal)) (r : Fin 100000) :
    StableHlo.after hostOps0 W (Proc.devRef .tc main_v2) (ix2 r (0 : Fin 1)) = W (Proc.devRef .tc main_arg1) (ix1 r) := by
  refine Eq.trans (congrFun ?_ _)
    (Cert.LibLayout.shapeCast_a_a1_apply (a := 100000) (W (Proc.devRef .tc main_arg1)) shapeCasts_S100000_S100000x1 r 0)
  after_results
  rfl

/-! ## The second stretch -/

theorem host1_v13 (W : Valuation τ sig (Elt Ideal)) (q : Fin 40000) (j : Fin 128) :
    StableHlo.after hostOps1 W (Proc.devRef .tc main_v13) (ix2 q j)
      = acc (rawId (W (Proc.devRef .tc main_arg14)))
          (fun p => mat (W (Proc.devRef .tc main_v3))
            (gRow 100000 (by decide) 100000#32 (W (Proc.devRef .tc main_arg13)) p)) q j := by
  refine Eq.trans (congrFun ?_ _)
    (HostStage.seg_apply (n := 100000) (m := 40000) (e := 640000) (by decide) 100000#32
      scatter_S40000x128_S640000x1_S640000x128_1_0_0_1_wf gather_S100000x128_S640000x1_S640000x128_1_0_n_n_0_1_1128_wf
      bcast_S_S40000x128 bcast_S640000_S640000x1_0 bcast_S_S640000
      (W (Proc.devRef .tc main_v3)) (W (Proc.devRef .tc main_arg13)) (W (Proc.devRef .tc main_arg14)) q j)
  after_results
  rfl

theorem host1_v14 (W : Valuation τ sig (Elt Ideal)) (q : Fin 40000) :
    StableHlo.after hostOps1 W (Proc.devRef .tc main_v14) (ix2 q (0 : Fin 1)) = W (Proc.devRef .tc main_arg2) (ix1 q) := by
  refine Eq.trans (congrFun ?_ _)
    (Cert.LibLayout.shapeCast_a_a1_apply (a := 40000) (W (Proc.devRef .tc main_arg2)) shapeCasts_S40000_S40000x1 q 0)
  after_results
  rfl

theorem host1_v15 (W : Valuation τ sig (Elt Ideal)) (q : Fin 40000) :
    StableHlo.after hostOps1 W (Proc.devRef .tc main_v15) (ix2 q (0 : Fin 1)) = W (Proc.devRef .tc main_arg3) (ix1 q) := by
  refine Eq.trans (congrFun ?_ _)
    (Cert.LibLayout.shapeCast_a_a1_apply (a := 40000) (W (Proc.devRef .tc main_arg3)) shapeCasts_S40000_S40000x1 q 0)
  after_results
  rfl

/-! ## The third stretch -/

theorem host2_v26 (W : Valuation τ sig (Elt Ideal)) (r : Fin 100000) (j : Fin 128) :
    StableHlo.after hostOps2 W (Proc.devRef .tc main_v26) (ix2 r j)
      = acc (rawId (W (Proc.devRef .tc main_arg13)))
          (fun p => mat (W (Proc.devRef .tc main_v16))
            (gRow 40000 (by decide) 40000#32 (W (Proc.devRef .tc main_arg14)) p)) r j := by
  refine Eq.trans (congrFun ?_ _)
    (HostStage.seg_apply (n := 40000) (m := 100000) (e := 640000) (by decide) 40000#32
      scatter_S100000x128_S640000x1_S640000x128_1_0_0_1_wf gather_S40000x128_S640000x1_S640000x128_1_0_n_n_0_1_1128_wf
      bcast_S_S100000x128 bcast_S640000_S640000x1_0 bcast_S_S640000
      (W (Proc.devRef .tc main_v16)) (W (Proc.devRef .tc main_arg14)) (W (Proc.devRef .tc main_arg13)) r j)
  after_results
  rfl

theorem host2_v27 (W : Valuation τ sig (Elt Ideal)) (r : Fin 100000) :
    StableHlo.after hostOps2 W (Proc.devRef .tc main_v27) (ix2 r (0 : Fin 1)) = W (Proc.devRef .tc main_arg4) (ix1 r) := by
  refine Eq.trans (congrFun ?_ _)
    (Cert.LibLayout.shapeCast_a_a1_apply (a := 100000) (W (Proc.devRef .tc main_arg4)) shapeCasts_S100000_S100000x1 r 0)
  after_results
  rfl

theorem host2_v28 (W : Valuation τ sig (Elt Ideal)) (r : Fin 100000) :
    StableHlo.after hostOps2 W (Proc.devRef .tc main_v28) (ix2 r (0 : Fin 1)) = W (Proc.devRef .tc main_arg1) (ix1 r) := by
  refine Eq.trans (congrFun ?_ _)
    (Cert.LibLayout.shapeCast_a_a1_apply (a := 100000) (W (Proc.devRef .tc main_arg1)) shapeCasts_S100000_S100000x1 r 0)
  after_results
  rfl

/-! ## The fourth stretch -/

theorem host3_v39 (W : Valuation τ sig (Elt Ideal)) (q : Fin 40000) (j : Fin 128) :
    StableHlo.after hostOps3 W (Proc.devRef .tc main_v39) (ix2 q j)
      = acc (rawId (W (Proc.devRef .tc main_arg14)))
          (fun p => mat (W (Proc.devRef .tc main_v29))
            (gRow 100000 (by decide) 100000#32 (W (Proc.devRef .tc main_arg13)) p)) q j := by
  refine Eq.trans (congrFun ?_ _)
    (HostStage.seg_apply (n := 100000) (m := 40000) (e := 640000) (by decide) 100000#32
      scatter_S40000x128_S640000x1_S640000x128_1_0_0_1_wf gather_S100000x128_S640000x1_S640000x128_1_0_n_n_0_1_1128_wf
      bcast_S_S40000x128 bcast_S640000_S640000x1_0 bcast_S_S640000
      (W (Proc.devRef .tc main_v29)) (W (Proc.devRef .tc main_arg13)) (W (Proc.devRef .tc main_arg14)) q j)
  after_results_simp
  rfl

theorem host3_v40 (W : Valuation τ sig (Elt Ideal)) (q : Fin 40000) :
    StableHlo.after hostOps3 W (Proc.devRef .tc main_v40) (ix2 q (0 : Fin 1)) = W (Proc.devRef .tc main_arg2) (ix1 q) := by
  refine Eq.trans (congrFun ?_ _)
    (Cert.LibLayout.shapeCast_a_a1_apply (a := 40000) (W (Proc.devRef .tc main_arg2)) shapeCasts_S40000_S40000x1 q 0)
  after_results_simp
  rfl

theorem host3_v41 (W : Valuation τ sig (Elt Ideal)) (q : Fin 40000) :
    StableHlo.after hostOps3 W (Proc.devRef .tc main_v41) (ix2 q (0 : Fin 1)) = W (Proc.devRef .tc main_arg3) (ix1 q) := by
  refine Eq.trans (congrFun ?_ _)
    (Cert.LibLayout.shapeCast_a_a1_apply (a := 40000) (W (Proc.devRef .tc main_arg3)) shapeCasts_S40000_S40000x1 q 0)
  after_results_simp
  rfl

/-! ## The fifth stretch -/

theorem host4_v52 (W : Valuation τ sig (Elt Ideal)) (r : Fin 100000) (j : Fin 128) :
    StableHlo.after hostOps4 W (Proc.devRef .tc main_v52) (ix2 r j)
      = acc (rawId (W (Proc.devRef .tc main_arg13)))
          (fun p => mat (W (Proc.devRef .tc main_v42))
            (gRow 40000 (by decide) 40000#32 (W (Proc.devRef .tc main_arg14)) p)) r j := by
  refine Eq.trans (congrFun ?_ _)
    (HostStage.seg_apply (n := 40000) (m := 100000) (e := 640000) (by decide) 40000#32
      scatter_S100000x128_S640000x1_S640000x128_1_0_0_1_wf gather_S40000x128_S640000x1_S640000x128_1_0_n_n_0_1_1128_wf
      bcast_S_S100000x128 bcast_S640000_S640000x1_0 bcast_S_S640000
      (W (Proc.devRef .tc main_v42)) (W (Proc.devRef .tc main_arg14)) (W (Proc.devRef .tc main_arg13)) r j)
  after_results_simp
  rfl

theorem host4_v53 (W : Valuation τ sig (Elt Ideal)) (r : Fin 100000) :
    StableHlo.after hostOps4 W (Proc.devRef .tc main_v53) (ix2 r (0 : Fin 1)) = W (Proc.devRef .tc main_arg4) (ix1 r) := by
  refine Eq.trans (congrFun ?_ _)
    (Cert.LibLayout.shapeCast_a_a1_apply (a := 100000) (W (Proc.devRef .tc main_arg4)) shapeCasts_S100000_S100000x1 r 0)
  after_results_simp
  rfl

end Cert.KerHost

end
-- ==== Proof.KerPay.lean ====
/-
  What the five kernel bodies compute, read at an entry of the output block.

  Four bodies are the same projection of a block of 5000 rows:  every row is multiplied by its own scale (a column
  entry repeated along the row), in three of the four passed through max(., 0), multiplied into a 128 x 128 weight
  matrix (the narrowing of the operands changes nothing on the extended reals, and a product accumulated into zeros
  is the plain sum over the shared axis), shifted by the bias, and multiplied by a second scale of its row.  Entry
  (p, q) therefore is   post(p) * (sum_k act(x(p, k) * pre(p)) * w(k, q) + b(q)).   The fifth body multiplies every
  row by its scale.
-/
import proofs.«106235_j31842887533233_2_alg».proof.Proof.Gen.KernelIdeal.Skeleton
import proofs.«106235_j31842887533233_2_alg».proof.Proof.LibDense
import proofs.«106235_j31842887533233_2_alg».proof.Proof.LibLayout
import Idealize.ShloMosaic.Lib.ValueIdx
import Idealize.ShloMosaic.Lib.Pipeline.Value

noncomputable section

open scoped BigOperators

namespace Cert.KerPay

open Cert.KernelIdeal Idealize.ShloMosaic Idealize.ShloMosaic.ValueIdx

/-- A column of 5000 entries laid along the 128 lanes reads, at (p, q), the column's entry of row p. -/
theorem col_lanes (v : FVec Ideal S5000x1 .f32) (h1 : S5000x1.ShapeCasts S5000x1) (h2 : S5000x1.Broadcasts S5000x128)
    (p : Fin 5000) (q : Fin 128) :
    broadcastTo S5000x128 (shapeCast S5000x1 v h1) h2 (ix2 p q) = v (ix2 p (0 : Fin 1)) := by
  rw [shapeCast_self]
  exact Cert.LibLayout.broadcastTo_a1_ab_apply v h2 p q

/-- The projection without the maximum. -/
theorem pay0_apply (x0 : Vec Ideal S5000x128 .f32) (x1 : Vec Ideal S5000x1 .f32) (x2 : Vec Ideal S128x128 .f32)
    (x3 : Vec Ideal S128 .f32) (x4 : Vec Ideal S5000x1 .f32) (p : Fin 5000) (q : Fin 128) :
    Gen.k0_pay1 x0 x1 x2 x3 x4 (ix2 p q)
      = x4 (ix2 p (0 : Fin 1)) * ((∑ k : Fin 128, (x0 (ix2 p k) * x1 (ix2 p (0 : Fin 1))) * x2 (ix2 k q)) + x3 (ix1 q)) := by
  have c1 : S5000x1.ShapeCasts S5000x1 := by decide
  have b1 : S5000x1.Broadcasts S5000x128 := by decide
  have c0 : S5000x128.ShapeCasts S5000x128 := by decide
  have cB : S128.ShapeCasts S1x128 := by decide
  have bB : S1x128.Broadcasts S5000x128 := by decide
  have lt : FTy.bits .bf16 < FTy.bits .f32 := by decide
  have hd := congrFun (Cert.LibDense.dense_kernel (A := 5000) (K := 128) (N := 128)
    (mulf x0 (broadcastTo S5000x128 (shapeCast S5000x1 x1 c1) b1)) x2 x3 lt cB bB) (ix2 p q)
  have e : Gen.k0_pay1 x0 x1 x2 x3 x4 (ix2 p q)
      = broadcastTo S5000x128 (shapeCast S5000x1 x4 c1) b1 (ix2 p q)
        * Cert.LibDense.dense 5000 128 128 (mulf x0 (broadcastTo S5000x128 (shapeCast S5000x1 x1 c1) b1) : FVec Ideal S5000x128 .f32) x2 x3 (ix2 p q) := by
    rw [← hd]; rfl
  rw [e, col_lanes]
  refine congrArg (x4 (ix2 p (0 : Fin 1)) * ·) ?_
  show (∑ k : Fin 128, (mulf x0 (broadcastTo S5000x128 (shapeCast S5000x1 x1 c1) b1) : FVec Ideal S5000x128 .f32) (ix2 p k) * x2 (ix2 k q)) + x3 (ix1 q) = _
  refine congrArg (· + x3 (ix1 q)) (Finset.sum_congr rfl fun k _ => ?_)
  rw [mulf_apply, col_lanes]

/-- The projection with the maximum. -/
theorem pay1_apply (x0 : Vec Ideal S5000x128 .f32) (x1 : Vec Ideal S5000x1 .f32) (x2 : Vec Ideal S128x128 .f32)
    (x3 : Vec Ideal S128 .f32) (x4 : Vec Ideal S5000x1 .f32) (p : Fin 5000) (q : Fin 128) :
    Gen.k1_pay1 x0 x1 x2 x3 x4 (ix2 p q)
      = x4 (ix2 p (0 : Fin 1)) * ((∑ k : Fin 128, max (x0 (ix2 p k) * x1 (ix2 p (0 : Fin 1))) 0 * x2 (ix2 k q)) + x3 (ix1 q)) := by
  have c1 : S5000x1.ShapeCasts S5000x1 := by decide
  have b1 : S5000x1.Broadcasts S5000x128 := by decide
  have c0 : S5000x128.ShapeCasts S5000x128 := by decide
  have cB : S128.ShapeCasts S1x128 := by decide
  have bB : S1x128.Broadcasts S5000x128 := by decide
  have lt : FTy.bits .bf16 < FTy.bits .f32 := by decide
  have hd := congrFun (Cert.LibDense.dense_kernel (A := 5000) (K := 128) (N := 128)
    (maximumf (mulf (shapeCast S5000x128 x0 c0) (broadcastTo S5000x128 (shapeCast S5000x1 x1 c1) b1))
      (broadcast S5000x128 (Scalar.ofBits (F := Ideal) .f32 0x00000000#32))) x2 x3 lt cB bB) (ix2 p q)
  have e : Gen.k1_pay1 x0 x1 x2 x3 x4 (ix2 p q)
      = broadcastTo S5000x128 (shapeCast S5000x1 x4 c1) b1 (ix2 p q)
        * Cert.LibDense.dense 5000 128 128 (maximumf (mulf (shapeCast S5000x128 x0 c0) (broadcastTo S5000x128 (shapeCast S5000x1 x1 c1) b1))
            (broadcast S5000x128 (Scalar.ofBits (F := Ideal) .f32 0x00000000#32)) : FVec Ideal S5000x128 .f32) x2 x3 (ix2 p q) := by
    rw [← hd]; rfl
  rw [e, col_lanes]
  refine congrArg (x4 (ix2 p (0 : Fin 1)) * ·) ?_
  show (∑ k : Fin 128, (maximumf (mulf (shapeCast S5000x128 x0 c0) (broadcastTo S5000x128 (shapeCast S5000x1 x1 c1) b1))
      (broadcast S5000x128 (Scalar.ofBits (F := Ideal) .f32 0x00000000#32)) : FVec Ideal S5000x128 .f32) (ix2 p k) * x2 (ix2 k q)) + x3 (ix1 q) = _
  refine congrArg (· + x3 (ix1 q)) (Finset.sum_congr rfl fun k _ => ?_)
  rw [maximumf_apply, mulf_apply, col_lanes, shapeCast_self, broadcast_apply]
  show max (x0 (ix2 p k) * x1 (ix2 p (0 : Fin 1))) (Ideal.ofBits .f32 0x00000000#32) * x2 (ix2 k q) = _
  rw [Ideal.ofBits_zero_f32]

/-- The second and third bodies with the maximum are the first one, word for word. -/
theorem pay2_eq : @Gen.k2_pay1 Ideal _ = @Gen.k1_pay1 Ideal _ := rfl

theorem pay3_eq : @Gen.k3_pay1 Ideal _ = @Gen.k1_pay1 Ideal _ := rfl

/-- The last body: every row times its scale. -/
theorem pay4_apply (v0 : Vec Ideal S5000x1 .f32) (v2 : Vec Ideal S5000x128 .f32) (p : Fin 5000) (q : Fin 128) :
    Gen.k4_pay1 v0 v2 (ix2 p q) = v0 (ix2 p (0 : Fin 1)) * v2 (ix2 p q) := by
  show broadcastTo S5000x128 (shapeCast S5000x1 v0 _) _ (ix2 p q) * shapeCast S5000x128 v2 _ (ix2 p q) = _
  rw [col_lanes, shapeCast_self]

end Cert.KerPay

end
-- ==== Proof.KerRegion0.lean ====
/-
  From blocks to arrays.  Each projection region walks over its rows in blocks of 5000: at grid point t it fetches rows
  t*5000 .. t*5000+4999 of the row operand and of the two scale columns, the whole weight matrix and bias, and writes
  the same rows of the result.  An entry of a projection depends on its own row only, so the block written at point t
  is the block of ONE whole-array function (the projection of the arrays as the region finds them), and the blocks
  tile the rows (row r lies in the block of point r / 5000): the result array ends as that function.
-/
import proofs.«106235_j31842887533233_2_alg».proof.Proof.FrameKernelIdeal
import proofs.«106235_j31842887533233_2_alg».proof.Proof.KerPay
import Idealize.ShloMosaic.Lib.Pipeline.Value
import Idealize.ShloMosaic.Lib.ValueIdx

set_option maxRecDepth 16384

noncomputable section

open scoped BigOperators

namespace Cert.KerRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The projection on whole arrays: entry (r, q) from row r, its two scales, the weights and the bias. -/
def proj (act : EReal → EReal) {R : ℕ} (x : (⟨2, ![R, 128]⟩ : Shape).Idx → EReal) (pre : (⟨2, ![R, 1]⟩ : Shape).Idx → EReal)
    (w : (⟨2, ![128, 128]⟩ : Shape).Idx → EReal) (b : (⟨1, ![128]⟩ : Shape).Idx → EReal)
    (post : (⟨2, ![R, 1]⟩ : Shape).Idx → EReal) : (⟨2, ![R, 128]⟩ : Shape).Idx → EReal :=
  fun i => post (ix2 (i 0 : Fin R) (0 : Fin 1))
    * ((∑ k : Fin 128, act (x (ix2 (i 0 : Fin R) k) * pre (ix2 (i 0 : Fin R) (0 : Fin 1))) * w (ix2 k (i 1 : Fin 128))) + b (ix1 (i 1 : Fin 128)))

/-- The last region on whole arrays: every row times its scale. -/
def scaleRows {R : ℕ} (x : (⟨2, ![R, 128]⟩ : Shape).Idx → EReal) (s : (⟨2, ![R, 1]⟩ : Shape).Idx → EReal) :
    (⟨2, ![R, 128]⟩ : Shape).Idx → EReal :=
  fun i => s (ix2 (i 0 : Fin R) (0 : Fin 1)) * x i

theorem hz2 : (![0, 0] : Fin 2 → Nat) = fun _ => 0 := funext fun a => by fin_cases a <;> rfl

theorem hz1 : (![0] : Fin 1 → Nat) = fun _ => 0 := funext fun a => by fin_cases a <;> rfl

/-! ## Region 0 -/

section Region0

variable (V : (c : Dev nD) → (b : Ref sig .tc) → Buf (Elt Ideal) ((c : Thread nD τ).loc b))

/-- The printed index maps over the grid: the row operand, the two scale columns and the result move with the point;
    the weights and the bias stay. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row p of the block of point t is row t * 5000 + p of the array. -/
def row0 (t : Fin cfg0.N) (p : Fin 5000) : Fin 100000 :=
  ⟨t.val * 5000 + p.val, by have h : t.val < 20 := t.isLt; have := p.isLt; omega⟩

theorem rd0_0 (c : Dev nD) (t : Fin cfg0.N) (p : Fin 5000) (k : Fin 128) :
    iblk0 V c 0 t (ix2 p k) = V c main_arg0 (ix2 (row0 t p) k) := by
  show V c main_arg0 (((cfg0.win 0).blk t).view.emb (ix2 p k)) = _
  obtain ⟨e0, e1, -⟩ := idx0 t
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem rd0_1 (c : Dev nD) (t : Fin cfg0.N) (p : Fin 5000) :
    iblk0 V c 1 t (ix2 p (0 : Fin 1)) = V c main_v1 (ix2 (row0 t p) (0 : Fin 1)) := by
  show V c main_v1 (((cfg0.win 1).blk t).view.emb (ix2 p (0 : Fin 1))) = _
  obtain ⟨-, -, e0, e1, -⟩ := idx0 t
  refine congrArg (V c main_v1) (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * 0 = 0; omega

theorem rd0_2 (c : Dev nD) (t : Fin cfg0.N) (k : Fin 128) (q : Fin 128) :
    iblk0 V c 2 t (ix2 k q) = V c main_arg5 (ix2 k q) := by
  show V c main_arg5 (((cfg0.win 2).blk t).view.emb (ix2 k q)) = _
  obtain ⟨-, -, -, -, e0, e1, -⟩ := idx0 t
  refine congrArg (V c main_arg5) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem rd0_3 (c : Dev nD) (t : Fin cfg0.N) (q : Fin 128) :
    iblk0 V c 3 t (ix1 q) = V c main_arg6 (ix1 q) := by
  show V c main_arg6 (((cfg0.win 3).blk t).view.emb (ix1 q)) = _
  obtain ⟨-, -, -, -, -, -, e0, -⟩ := idx0 t
  refine congrArg (V c main_arg6) (funext fun a => Fin.ext ?_)
  match a with
  | ⟨0, _⟩ => show win0_3.index t (0 : Fin 1) * 128 + 1 * q.val = q.val; omega

theorem rd0_4 (c : Dev nD) (t : Fin cfg0.N) (p : Fin 5000) :
    iblk0 V c 4 t (ix2 p (0 : Fin 1)) = V c main_v2 (ix2 (row0 t p) (0 : Fin 1)) := by
  show V c main_v2 (((cfg0.win 4).blk t).view.emb (ix2 p (0 : Fin 1))) = _
  obtain ⟨-, -, -, -, -, -, -, e0, e1, -⟩ := idx0 t
  refine congrArg (V c main_v2) (funext fun a => Fin.ext ?_)
  match a with
  | ⟨0, _⟩ => show win0_4.index t (0 : Fin 2) * 5000 + 1 * p.val = t.val * 5000 + p.val; omega
  | ⟨1, _⟩ => show win0_4.index t (1 : Fin 2) * 1 + 1 * 0 = 0; omega

/-- Entry (p, q) of the result's block at point t is entry (t * 5000 + p, q) of the array. -/
theorem emb0_5 (t : Fin cfg0.N) (p : Fin 5000) (q : Fin 128) :
    ((cfg0.win 5).blk t).view.emb (ix2 p q) = ix2 (row0 t p) q := by
  obtain ⟨-, -, -, -, -, -, -, -, -, e0, e1⟩ := idx0 t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * q.val = q.val; omega

/-- What point t writes back is block t of the projection of the arrays as the region finds them. -/
theorem flushed0 (c : Dev nD) (t : Fin cfg0.N) :
    (dat0 V c).flushed 5 t = ((cfg0.win 5).blk t).view.read (Elt Ideal)
      (proj (R := 100000) id (V c main_arg0) (V c main_v1) (V c main_arg5) (V c main_arg6) (V c main_v2)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S5000x1) hz2, View.ld_unit_zero (S := S128x128) hz2,
    View.ld_unit_zero (S := S128) hz1]
  funext y
  obtain ⟨p, q, rfl⟩ : ∃ (p : Fin 5000) (q : Fin 128), y = ix2 p q := ⟨y 0, y 1, eq_ix2 y⟩
  show k0_pay1 (iblk0 V c 0 t) (iblk0 V c 1 t) (iblk0 V c 2 t) (iblk0 V c 3 t) (iblk0 V c 4 t) (ix2 p q)
    = proj (R := 100000) id (V c main_arg0) (V c main_v1) (V c main_arg5) (V c main_arg6) (V c main_v2) (((cfg0.win 5).blk t).view.emb (ix2 p q))
  rw [emb0_5]
  refine (Cert.KerPay.pay0_apply (iblk0 V c 0 t) (iblk0 V c 1 t) (iblk0 V c 2 t) (iblk0 V c 3 t) (iblk0 V c 4 t) p q).trans ?_
  simp only [rd0_0 V c t, rd0_1 V c t, rd0_2 V c t, rd0_3 V c t, rd0_4 V c t]
  rfl

/-- An index of the result array is in point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v3).slice (win0_5.rect t)).set ↔ _
  rw [View.set_slice_whole, Rect.mem_set_unit]
  exact Iff.rfl

/-- The blocks tile the rows. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < 20 := by omega
  refine ⟨⟨(i 0).val / 5000, ht⟩, flush0_5 _, ?_⟩
  obtain ⟨-, -, -, -, -, -, -, -, -, e0, e1⟩ := idx0 ⟨(i 0).val / 5000, ht⟩
  rw [mem_blk0]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]; omega

/-- THE RESULT ARRAY of region 0: the projection of the arrays as the region finds them. -/
theorem region0 (c : Dev nD) :
    (dat0 V c).arrAt 5 cfg0.N = proj (R := 100000) id (V c main_arg0) (V c main_v1) (V c main_arg5) (V c main_arg6) (V c main_v2) :=
  (dat0 V c).arrAt_eq_of_cover 5 _ (fun t _ => flushed0 V c t) cover0

end Region0

end Cert.KerRegion

end
-- ==== Proof.KerRegion1.lean ====
/-
  Region 1, from blocks to the array: the same argument as for region 0 (an entry depends on its own row; the blocks of
  5000 rows tile the rows), at this region's windows and grid.
-/
import proofs.«106235_j31842887533233_2_alg».proof.Proof.FrameKernelIdeal
import proofs.«106235_j31842887533233_2_alg».proof.Proof.KerPay
import proofs.«106235_j31842887533233_2_alg».proof.Proof.KerRegion0
import Idealize.ShloMosaic.Lib.Pipeline.Value
import Idealize.ShloMosaic.Lib.ValueIdx

set_option maxRecDepth 16384

noncomputable section

open scoped BigOperators

namespace Cert.KerRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## Region 1 -/

section Region1

variable (V : (c : Dev nD) → (b : Ref sig .tc) → Buf (Elt Ideal) ((c : Thread nD τ).loc b))

/-- The printed index maps over the grid: the row operand, the two scale columns and the result move with the point;
    the weights and the bias stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row p of the block of point t is row t * 5000 + p of the array. -/
def row1 (t : Fin cfg1.N) (p : Fin 5000) : Fin 40000 :=
  ⟨t.val * 5000 + p.val, by have h : t.val < 8 := t.isLt; have := p.isLt; omega⟩

theorem rd1_0 (c : Dev nD) (t : Fin cfg1.N) (p : Fin 5000) (k : Fin 128) :
    iblk1 V c 0 t (ix2 p k) = V c main_v13 (ix2 (row1 t p) k) := by
  show V c main_v13 (((cfg1.win 0).blk t).view.emb (ix2 p k)) = _
  obtain ⟨e0, e1, -⟩ := idx1 t
  refine congrArg (V c main_v13) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem rd1_1 (c : Dev nD) (t : Fin cfg1.N) (p : Fin 5000) :
    iblk1 V c 1 t (ix2 p (0 : Fin 1)) = V c main_v14 (ix2 (row1 t p) (0 : Fin 1)) := by
  show V c main_v14 (((cfg1.win 1).blk t).view.emb (ix2 p (0 : Fin 1))) = _
  obtain ⟨-, -, e0, e1, -⟩ := idx1 t
  refine congrArg (V c main_v14) (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * 0 = 0; omega

theorem rd1_2 (c : Dev nD) (t : Fin cfg1.N) (k : Fin 128) (q : Fin 128) :
    iblk1 V c 2 t (ix2 k q) = V c main_arg7 (ix2 k q) := by
  show V c main_arg7 (((cfg1.win 2).blk t).view.emb (ix2 k q)) = _
  obtain ⟨-, -, -, -, e0, e1, -⟩ := idx1 t
  refine congrArg (V c main_arg7) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem rd1_3 (c : Dev nD) (t : Fin cfg1.N) (q : Fin 128) :
    iblk1 V c 3 t (ix1 q) = V c main_arg8 (ix1 q) := by
  show V c main_arg8 (((cfg1.win 3).blk t).view.emb (ix1 q)) = _
  obtain ⟨-, -, -, -, -, -, e0, -⟩ := idx1 t
  refine congrArg (V c main_arg8) (funext fun a => Fin.ext ?_)
  match a with
  | ⟨0, _⟩ => show win1_3.index t (0 : Fin 1) * 128 + 1 * q.val = q.val; omega

theorem rd1_4 (c : Dev nD) (t : Fin cfg1.N) (p : Fin 5000) :
    iblk1 V c 4 t (ix2 p (0 : Fin 1)) = V c main_v15 (ix2 (row1 t p) (0 : Fin 1)) := by
  show V c main_v15 (((cfg1.win 4).blk t).view.emb (ix2 p (0 : Fin 1))) = _
  obtain ⟨-, -, -, -, -, -, -, e0, e1, -⟩ := idx1 t
  refine congrArg (V c main_v15) (funext fun a => Fin.ext ?_)
  match a with
  | ⟨0, _⟩ => show win1_4.index t (0 : Fin 2) * 5000 + 1 * p.val = t.val * 5000 + p.val; omega
  | ⟨1, _⟩ => show win1_4.index t (1 : Fin 2) * 1 + 1 * 0 = 0; omega

/-- Entry (p, q) of the result's block at point t is entry (t * 5000 + p, q) of the array. -/
theorem emb1_5 (t : Fin cfg1.N) (p : Fin 5000) (q : Fin 128) :
    ((cfg1.win 5).blk t).view.emb (ix2 p q) = ix2 (row1 t p) q := by
  obtain ⟨-, -, -, -, -, -, -, -, -, e0, e1⟩ := idx1 t
  refine funext fun a => Fin.ext ?_
  match a with
  | ⟨0, _⟩ => show win1_5.index t (0 : Fin 2) * 5000 + 1 * p.val = t.val * 5000 + p.val; omega
  | ⟨1, _⟩ => show win1_5.index t (1 : Fin 2) * 128 + 1 * q.val = q.val; omega

/-- What point t writes back is block t of the projection of the arrays as the region finds them. -/
theorem flushed1 (c : Dev nD) (t : Fin cfg1.N) :
    (dat1 V c).flushed 5 t = ((cfg1.win 5).blk t).view.read (Elt Ideal)
      (proj (R := 40000) (fun v => max v 0) (V c main_v13) (V c main_v14) (V c main_arg7) (V c main_arg8) (V c main_v15)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S5000x1) hz2, View.ld_unit_zero (S := S128x128) hz2,
    View.ld_unit_zero (S := S128) hz1]
  funext y
  obtain ⟨p, q, rfl⟩ : ∃ (p : Fin 5000) (q : Fin 128), y = ix2 p q := ⟨y 0, y 1, eq_ix2 y⟩
  show k1_pay1 (iblk1 V c 0 t) (iblk1 V c 1 t) (iblk1 V c 2 t) (iblk1 V c 3 t) (iblk1 V c 4 t) (ix2 p q)
    = proj (R := 40000) (fun v => max v 0) (V c main_v13) (V c main_v14) (V c main_arg7) (V c main_arg8) (V c main_v15) (((cfg1.win 5).blk t).view.emb (ix2 p q))
  rw [emb1_5]
  refine (Cert.KerPay.pay1_apply (iblk1 V c 0 t) (iblk1 V c 1 t) (iblk1 V c 2 t) (iblk1 V c 3 t) (iblk1 V c 4 t) p q).trans ?_
  simp only [rd1_0 V c t, rd1_1 V c t, rd1_2 V c t, rd1_3 V c t, rd1_4 V c t]
  rfl

/-- An index of the result array is in point t's block iff each coordinate is in the block's range on its axis. -/
theorem mem_blk1 (t : Fin cfg1.N) (i : S40000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v16).slice (win1_5.rect t)).set ↔ _
  rw [View.set_slice_whole, Rect.mem_set_unit]
  exact Iff.rfl

/-- The blocks tile the rows. -/
theorem cover1 (i : S40000x128.Idx) :
    ∃ t : Fin cfg1.N, (cfg1.win 5).flush t = true ∧ i ∈ ((cfg1.win 5).blk t).view.set := by
  have hi0 : (i 0).val < 40000 := (i 0).isLt
  have hi1 : (i 1).val < 128 := (i 1).isLt
  have ht : (i 0).val / 5000 < 8 := by omega
  refine ⟨⟨(i 0).val / 5000, ht⟩, flush1_5 _, ?_⟩
  obtain ⟨-, -, -, -, -, -, -, -, -, e0, e1⟩ := idx1 ⟨(i 0).val / 5000, ht⟩
  rw [mem_blk1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e1]; omega

/-- THE RESULT ARRAY of region 1: the projection of the arrays as the region finds them. -/
theorem region1 (c : Dev nD) :
    (dat1 V c).arrAt 5 cfg1.N = proj (R := 40000) (fun v => max v 0) (V c main_v13) (V c main_v14) (V c main_arg7) (V c main_arg8) (V c main_v15) :=
  (dat1 V c).arrAt_eq_of_cover 5 _ (fun t _ => flushed1 V c t) cover1

end Region1

end Cert.KerRegion

end
-- ==== Proof.KerRegion2.lean ====
/-
  Region 2, from blocks to the array: the same argument as for region 0 (an entry depends on its own row; the blocks of
  5000 rows tile the rows), at this region's windows and grid.
-/
import proofs.«106235_j31842887533233_2_alg».proof.Proof.FrameKernelIdeal
import proofs.«106235_j31842887533233_2_alg».proof.Proof.KerPay
import proofs.«106235_j31842887533233_2_alg».proof.Proof.KerRegion0
import Idealize.ShloMosaic.Lib.Pipeline.Value
import Idealize.ShloMosaic.Lib.ValueIdx

set_option maxRecDepth 16384

noncomputable section

open scoped BigOperators

namespace Cert.KerRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## Region 2 -/

section Region2

variable (V : (c : Dev nD) → (b : Ref sig .tc) → Buf (Elt Ideal) ((c : Thread nD τ).loc b))

/-- The printed index maps over the grid: the row operand, the two scale columns and the result move with the point;
    the weights and the bias stay. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Row p of the block of point t is row t * 5000 + p of the array. -/
def row2 (t : Fin cfg2.N) (p : Fin 5000) : Fin 100000 :=
  ⟨t.val * 5000 + p.val, by have h : t.val < 20 := t.isLt; have := p.isLt; omega⟩

theorem rd2_0 (c : Dev nD) (t : Fin cfg2.N) (p : Fin 5000) (k : Fin 128) :
    iblk2 V c 0 t (ix2 p k) = V c main_v26 (ix2 (row2 t p) k) := by
  show V c main_v26 (((cfg2.win 0).blk t).view.emb (ix2 p k)) = _
  obtain ⟨e0, e1, -⟩ := idx2 t
  refine congrArg (V c main_v26) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

theorem rd2_1 (c : Dev nD) (t : Fin cfg2.N) (p : Fin 5000) :
    iblk2 V c 1 t (ix2 p (0 : Fin 1)) = V c main_v27 (ix2 (row2 t p) (0 : Fin 1)) := by
  show V c main_v27 (((cfg2.win 1).blk t).view.emb (ix2 p (0 : Fin 1))) = _
  obtain ⟨-, -, e0, e1, -⟩ := idx2 t
  refine congrArg (V c main_v27) (funext fun a => Fin.ext ?_)
  match a with
  | ⟨0, _⟩ => show win2_1.index t (0 : Fin 2) * 5000 + 1 * p.val = t.val * 5000 + p.val; omega
  | ⟨1, _⟩ => show win2_1.index t (1 : Fin 2) * 1 + 1 * 0 = 0; omega

theorem rd2_2 (c : Dev nD) (t : Fin cfg2.N) (k : Fin 128) (q : Fin 128) :
    iblk2 V c 2 t (ix2 k q) = V c main_arg9 (ix2 k q) := by
  show V c main_arg9 (((cfg2.win 2).blk t).view.emb (ix2 k q)) = _
  obtain ⟨-, -, -, -, e0, e1, -⟩ := idx2 t
  refine congrArg (V c main_arg9) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

theorem rd2_3 (c : Dev nD) (t : Fin cfg2.N) (q : Fin 128) :
    iblk2 V c 3 t (ix1 q) = V c main_arg10 (ix1 q) := by
  show V c main_arg10 (((cfg2.win 3).blk t).view.emb (ix1 q)) = _
  obtain ⟨-, -, -, -, -, -, e0, -⟩ := idx2 t
  refine congrArg (V c main_arg10) (funext fun a => Fin.ext ?_)
  match a with
  | ⟨0, _⟩ => show win2_3.index t (0 : Fin 1) * 128 + 1 * q.val = q.val; omega

theorem rd2_4 (c : Dev nD) (t : Fin cfg2.N) (p : Fin 5000) :
    iblk2 V c 4 t (ix2 p (0 : Fin 1)) = V c main_v28 (ix2 (row2 t p) (0 : Fin 1)) := by
  show V c main_v28 (((cfg2.win 4).blk t).view.emb (ix2 p (0 : Fin 1))) = _
  obtain ⟨-, -, -, -, -, -, -, e0, e1, -⟩ := idx2 t
  refine congrArg (V c main_v28) (funext fun a => Fin.ext ?_)
  match a with
  | ⟨0, _⟩ => show win2_4.index t (0 : Fin 2) * 5000 + 1 * p.val = t.val * 5000 + p.val; omega
  | ⟨1, _⟩ => show win2_4.index t (1 : Fin 2) * 1 + 1 * 0 = 0; omega

/-- Entry (p, q) of the result's block at point t is entry (t * 5000 + p, q) of the array. -/
theorem emb2_5 (t : Fin cfg2.N) (p : Fin 5000) (q : Fin 128) :
    ((cfg2.win 5).blk t).view.emb (ix2 p q) = ix2 (row2 t p) q := by
  obtain ⟨-, -, -, -, -, -, -, -, -, e0, e1⟩ := idx2 t
  refine funext fun a => Fin.ext ?_
  match a with
  | ⟨0, _⟩ => show win2_5.index t (0 : Fin 2) * 5000 + 1 * p.val = t.val * 5000 + p.val; omega
  | ⟨1, _⟩ => show win2_5.index t (1 : Fin 2) * 128 + 1 * q.val = q.val; omega

/-- What point t writes back is block t of the projection of the arrays as the region finds them. -/
theorem flushed2 (c : Dev nD) (t : Fin cfg2.N) :
    (dat2 V c).flushed 5 t = ((cfg2.win 5).blk t).view.read (Elt Ideal)
      (proj (R := 100000) (fun v => max v 0) (V c main_v26) (V c main_v27) (V c main_arg9) (V c main_arg10) (V c main_v28)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S5000x1) hz2, View.ld_unit_zero (S := S128x128) hz2,
    View.ld_unit_zero (S := S128) hz1]
  funext y
  obtain ⟨p, q, rfl⟩ : ∃ (p : Fin 5000) (q : Fin 128), y = ix2 p q := ⟨y 0, y 1, eq_ix2 y⟩
  show k2_pay1 (iblk2 V c 0 t) (iblk2 V c 1 t) (iblk2 V c 2 t) (iblk2 V c 3 t) (iblk2 V c 4 t) (ix2 p q)
    = proj (R := 100000) (fun v => max v 0) (V c main_v26) (V c main_v27) (V c main_arg9) (V c main_arg10) (V c main_v28) (((cfg2.win 5).blk t).view.emb (ix2 p q))
  rw [emb2_5]
  rw [show (@k2_pay1 Ideal _) = @k1_pay1 Ideal _ from Cert.KerPay.pay2_eq]
  refine (Cert.KerPay.pay1_apply (iblk2 V c 0 t) (iblk2 V c 1 t) (iblk2 V c 2 t) (iblk2 V c 3 t) (iblk2 V c 4 t) p q).trans ?_
  simp only [rd2_0 V c t, rd2_1 V c t, rd2_2 V c t, rd2_3 V c t, rd2_4 V c t]
  rfl

/-- An index of the result array is in point t's block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v29).slice (win2_5.rect t)).set ↔ _
  rw [View.set_slice_whole, Rect.mem_set_unit]
  exact Iff.rfl

/-- The blocks tile the rows. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have ht : (i 0).val / 5000 < 20 := by omega
  refine ⟨⟨(i 0).val / 5000, ht⟩, flush2_5 _, ?_⟩
  obtain ⟨-, -, -, -, -, -, -, -, -, e0, e1⟩ := idx2 ⟨(i 0).val / 5000, ht⟩
  rw [mem_blk2]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e1]; omega

/-- THE RESULT ARRAY of region 2: the projection of the arrays as the region finds them. -/
theorem region2 (c : Dev nD) :
    (dat2 V c).arrAt 5 cfg2.N = proj (R := 100000) (fun v => max v 0) (V c main_v26) (V c main_v27) (V c main_arg9) (V c main_arg10) (V c main_v28) :=
  (dat2 V c).arrAt_eq_of_cover 5 _ (fun t _ => flushed2 V c t) cover2

end Region2

end Cert.KerRegion

end
-- ==== Proof.KerRegion3.lean ====
/-
  Region 3, from blocks to the array: the same argument as for region 0 (an entry depends on its own row; the blocks of
  5000 rows tile the rows), at this region's windows and grid.
-/
import proofs.«106235_j31842887533233_2_alg».proof.Proof.FrameKernelIdeal
import proofs.«106235_j31842887533233_2_alg».proof.Proof.KerPay
import proofs.«106235_j31842887533233_2_alg».proof.Proof.KerRegion0
import Idealize.ShloMosaic.Lib.Pipeline.Value
import Idealize.ShloMosaic.Lib.ValueIdx

set_option maxRecDepth 16384

noncomputable section

open scoped BigOperators

namespace Cert.KerRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## Region 3 -/

section Region3

variable (V : (c : Dev nD) → (b : Ref sig .tc) → Buf (Elt Ideal) ((c : Thread nD τ).loc b))

/-- The printed index maps over the grid: the row operand, the two scale columns and the result move with the point;
    the weights and the bias stay. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- Row p of the block of point t is row t * 5000 + p of the array. -/
def row3 (t : Fin cfg3.N) (p : Fin 5000) : Fin 40000 :=
  ⟨t.val * 5000 + p.val, by have h : t.val < 8 := t.isLt; have := p.isLt; omega⟩

theorem rd3_0 (c : Dev nD) (t : Fin cfg3.N) (p : Fin 5000) (k : Fin 128) :
    iblk3 V c 0 t (ix2 p k) = V c main_v39 (ix2 (row3 t p) k) := by
  show V c main_v39 (((cfg3.win 0).blk t).view.emb (ix2 p k)) = _
  obtain ⟨e0, e1, -⟩ := idx3 t
  refine congrArg (V c main_v39) (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

theorem rd3_1 (c : Dev nD) (t : Fin cfg3.N) (p : Fin 5000) :
    iblk3 V c 1 t (ix2 p (0 : Fin 1)) = V c main_v40 (ix2 (row3 t p) (0 : Fin 1)) := by
  show V c main_v40 (((cfg3.win 1).blk t).view.emb (ix2 p (0 : Fin 1))) = _
  obtain ⟨-, -, e0, e1, -⟩ := idx3 t
  refine congrArg (V c main_v40) (funext fun a => Fin.ext ?_)
  match a with
  | ⟨0, _⟩ => show win3_1.index t (0 : Fin 2) * 5000 + 1 * p.val = t.val * 5000 + p.val; omega
  | ⟨1, _⟩ => show win3_1.index t (1 : Fin 2) * 1 + 1 * 0 = 0; omega

theorem rd3_2 (c : Dev nD) (t : Fin cfg3.N) (k : Fin 128) (q : Fin 128) :
    iblk3 V c 2 t (ix2 k q) = V c main_arg11 (ix2 k q) := by
  show V c main_arg11 (((cfg3.win 2).blk t).view.emb (ix2 k q)) = _
  obtain ⟨-, -, -, -, e0, e1, -⟩ := idx3 t
  refine congrArg (V c main_arg11) (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

theorem rd3_3 (c : Dev nD) (t : Fin cfg3.N) (q : Fin 128) :
    iblk3 V c 3 t (ix1 q) = V c main_arg12 (ix1 q) := by
  show V c main_arg12 (((cfg3.win 3).blk t).view.emb (ix1 q)) = _
  obtain ⟨-, -, -, -, -, -, e0, -⟩ := idx3 t
  refine congrArg (V c main_arg12) (funext fun a => Fin.ext ?_)
  match a with
  | ⟨0, _⟩ => show win3_3.index t (0 : Fin 1) * 128 + 1 * q.val = q.val; omega

theorem rd3_4 (c : Dev nD) (t : Fin cfg3.N) (p : Fin 5000) :
    iblk3 V c 4 t (ix2 p (0 : Fin 1)) = V c main_v41 (ix2 (row3 t p) (0 : Fin 1)) := by
  show V c main_v41 (((cfg3.win 4).blk t).view.emb (ix2 p (0 : Fin 1))) = _
  obtain ⟨-, -, -, -, -, -, -, e0, e1, -⟩ := idx3 t
  refine congrArg (V c main_v41) (funext fun a => Fin.ext ?_)
  match a with
  | ⟨0, _⟩ => show win3_4.index t (0 : Fin 2) * 5000 + 1 * p.val = t.val * 5000 + p.val; omega
  | ⟨1, _⟩ => show win3_4.index t (1 : Fin 2) * 1 + 1 * 0 = 0; omega

/-- Entry (p, q) of the result's block at point t is entry (t * 5000 + p, q) of the array. -/
theorem emb3_5 (t : Fin cfg3.N) (p : Fin 5000) (q : Fin 128) :
    ((cfg3.win 5).blk t).view.emb (ix2 p q) = ix2 (row3 t p) q := by
  obtain ⟨-, -, -, -, -, -, -, -, -, e0, e1⟩ := idx3 t
  refine funext fun a => Fin.ext ?_
  match a with
  | ⟨0, _⟩ => show win3_5.index t (0 : Fin 2) * 5000 + 1 * p.val = t.val * 5000 + p.val; omega
  | ⟨1, _⟩ => show win3_5.index t (1 : Fin 2) * 128 + 1 * q.val = q.val; omega

/-- What point t writes back is block t of the projection of the arrays as the region finds them. -/
theorem flushed3 (c : Dev nD) (t : Fin cfg3.N) :
    (dat3 V c).flushed 5 t = ((cfg3.win 5).blk t).view.read (Elt Ideal)
      (proj (R := 40000) (fun v => max v 0) (V c main_v39) (V c main_v40) (V c main_arg11) (V c main_arg12) (V c main_v41)) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S5000x1) hz2, View.ld_unit_zero (S := S128x128) hz2,
    View.ld_unit_zero (S := S128) hz1]
  funext y
  obtain ⟨p, q, rfl⟩ : ∃ (p : Fin 5000) (q : Fin 128), y = ix2 p q := ⟨y 0, y 1, eq_ix2 y⟩
  show k3_pay1 (iblk3 V c 0 t) (iblk3 V c 1 t) (iblk3 V c 2 t) (iblk3 V c 3 t) (iblk3 V c 4 t) (ix2 p q)
    = proj (R := 40000) (fun v => max v 0) (V c main_v39) (V c main_v40) (V c main_arg11) (V c main_arg12) (V c main_v41) (((cfg3.win 5).blk t).view.emb (ix2 p q))
  rw [emb3_5]
  rw [show (@k3_pay1 Ideal _) = @k1_pay1 Ideal _ from Cert.KerPay.pay3_eq]
  refine (Cert.KerPay.pay1_apply (iblk3 V c 0 t) (iblk3 V c 1 t) (iblk3 V c 2 t) (iblk3 V c 3 t) (iblk3 V c 4 t) p q).trans ?_
  simp only [rd3_0 V c t, rd3_1 V c t, rd3_2 V c t, rd3_3 V c t, rd3_4 V c t]
  rfl

/-- An index of the result array is in point t's block iff each coordinate is in the block's range on its axis. -/
theorem mem_blk3 (t : Fin cfg3.N) (i : S40000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v42).slice (win3_5.rect t)).set ↔ _
  rw [View.set_slice_whole, Rect.mem_set_unit]
  exact Iff.rfl

/-- The blocks tile the rows. -/
theorem cover3 (i : S40000x128.Idx) :
    ∃ t : Fin cfg3.N, (cfg3.win 5).flush t = true ∧ i ∈ ((cfg3.win 5).blk t).view.set := by
  have hi0 : (i 0).val < 40000 := (i 0).isLt
  have hi1 : (i 1).val < 128 := (i 1).isLt
  have ht : (i 0).val / 5000 < 8 := by omega
  refine ⟨⟨(i 0).val / 5000, ht⟩, flush3_5 _, ?_⟩
  obtain ⟨-, -, -, -, -, -, -, -, -, e0, e1⟩ := idx3 ⟨(i 0).val / 5000, ht⟩
  rw [mem_blk3]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    rw [e1]; omega

/-- THE RESULT ARRAY of region 3: the projection of the arrays as the region finds them. -/
theorem region3 (c : Dev nD) :
    (dat3 V c).arrAt 5 cfg3.N = proj (R := 40000) (fun v => max v 0) (V c main_v39) (V c main_v40) (V c main_arg11) (V c main_arg12) (V c main_v41) :=
  (dat3 V c).arrAt_eq_of_cover 5 _ (fun t _ => flushed3 V c t) cover3

end Region3

end Cert.KerRegion

end
-- ==== Proof.KerRegion4.lean ====
/-
  Region 4, from blocks to the array: every row of a block times its scale; an entry depends on its own row, and the blocks of
  5000 rows tile the rows.
-/
import proofs.«106235_j31842887533233_2_alg».proof.Proof.FrameKernelIdeal
import proofs.«106235_j31842887533233_2_alg».proof.Proof.KerPay
import proofs.«106235_j31842887533233_2_alg».proof.Proof.KerRegion0
import Idealize.ShloMosaic.Lib.Pipeline.Value
import Idealize.ShloMosaic.Lib.ValueIdx

set_option maxRecDepth 16384

noncomputable section

open scoped BigOperators

namespace Cert.KerRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## Region 4 -/

section Region4

variable (V : (c : Dev nD) → (b : Ref sig .tc) → Buf (Elt Ideal) ((c : Thread nD τ).loc b))

/-- The printed index maps over the grid: all three windows move with the point. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Row p of the block of point t is row t * 5000 + p of the array. -/
def row4 (t : Fin cfg4.N) (p : Fin 5000) : Fin 100000 :=
  ⟨t.val * 5000 + p.val, by have h : t.val < 20 := t.isLt; have := p.isLt; omega⟩

theorem rd4_0 (c : Dev nD) (t : Fin cfg4.N) (p : Fin 5000) (k : Fin 128) :
    iblk4 V c 0 t (ix2 p k) = V c main_v52 (ix2 (row4 t p) k) := by
  show V c main_v52 (((cfg4.win 0).blk t).view.emb (ix2 p k)) = _
  obtain ⟨e0, e1, -⟩ := idx4 t
  refine congrArg (V c main_v52) (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * k.val = k.val; omega

theorem rd4_1 (c : Dev nD) (t : Fin cfg4.N) (p : Fin 5000) :
    iblk4 V c 1 t (ix2 p (0 : Fin 1)) = V c main_v53 (ix2 (row4 t p) (0 : Fin 1)) := by
  show V c main_v53 (((cfg4.win 1).blk t).view.emb (ix2 p (0 : Fin 1))) = _
  obtain ⟨-, -, e0, e1, -⟩ := idx4 t
  refine congrArg (V c main_v53) (funext fun a => Fin.ext ?_)
  match a with
  | ⟨0, _⟩ => show win4_1.index t (0 : Fin 2) * 5000 + 1 * p.val = t.val * 5000 + p.val; omega
  | ⟨1, _⟩ => show win4_1.index t (1 : Fin 2) * 1 + 1 * 0 = 0; omega

theorem emb4_2 (t : Fin cfg4.N) (p : Fin 5000) (q : Fin 128) :
    ((cfg4.win 2).blk t).view.emb (ix2 p q) = ix2 (row4 t p) q := by
  obtain ⟨-, -, -, -, e0, e1⟩ := idx4 t
  refine funext fun a => Fin.ext ?_
  match a with
  | ⟨0, _⟩ => show win4_2.index t (0 : Fin 2) * 5000 + 1 * p.val = t.val * 5000 + p.val; omega
  | ⟨1, _⟩ => show win4_2.index t (1 : Fin 2) * 128 + 1 * q.val = q.val; omega

/-- What point t writes back is block t of the rows scaled, of the arrays as the region finds them. -/
theorem flushed4 (c : Dev nD) (t : Fin cfg4.N) :
    (dat4 V c).flushed 2 t = ((cfg4.win 2).blk t).view.read (Elt Ideal) (scaleRows (R := 100000) (V c main_v52) (V c main_v53)) := by
  show (cfg4.win 2).cut (grid4.coords t) ((dat4 V c).after 2 t) = _
  rw [after4_2]
  unfold out4_2
  rw [View.canon_unit_zero hz2]
  simp only [View.ld_unit_zero (S := S5000x128) hz2, View.ld_unit_zero (S := S5000x1) hz2]
  funext y
  obtain ⟨p, q, rfl⟩ : ∃ (p : Fin 5000) (q : Fin 128), y = ix2 p q := ⟨y 0, y 1, eq_ix2 y⟩
  show k4_pay1 (iblk4 V c 1 t) (iblk4 V c 0 t) (ix2 p q)
    = scaleRows (R := 100000) (V c main_v52) (V c main_v53) (((cfg4.win 2).blk t).view.emb (ix2 p q))
  rw [emb4_2]
  refine (Cert.KerPay.pay4_apply (iblk4 V c 1 t) (iblk4 V c 0 t) p q).trans ?_
  simp only [rd4_0 V c t, rd4_1 V c t]
  rfl

theorem mem_blk4 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v54).slice (win4_2.rect t)).set ↔ _
  rw [View.set_slice_whole, Rect.mem_set_unit]
  exact Iff.rfl

/-- The blocks tile the rows. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have ht : (i 0).val / 5000 < 20 := by omega
  refine ⟨⟨(i 0).val / 5000, ht⟩, flush4_2 _, ?_⟩
  obtain ⟨-, -, -, -, e0, e1⟩ := idx4 ⟨(i 0).val / 5000, ht⟩
  rw [mem_blk4]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val
      ∧ (i 1).val < win4_2.index ⟨(i 0).val / 5000, ht⟩ (1 : Fin 2) * 128 + 128
    rw [e1]; omega

/-- THE RESULT ARRAY of region 4: the rows of its operand, each times its scale. -/
theorem region4 (c : Dev nD) :
    (dat4 V c).arrAt 2 cfg4.N = scaleRows (R := 100000) (V c main_v52) (V c main_v53) :=
  (dat4 V c).arrAt_eq_of_cover 2 _ (fun t _ => flushed4 V c t) cover4

end Region4

end Cert.KerRegion

end
-- ==== Proof.KerValue.lean ====
/-
  The kernel program's result, entry by entry, is kerSpec of its argument arrays.

  The result buffer after the last region is read backwards through the boundaries of the program: a region's output
  array is the projection (or the row scale) of the arrays the region finds; what a region finds is either an argument
  (unchanged since the launch), a scale column (a reshape of an argument, or a column of ones), or the accumulation the
  preceding host stretch made of the preceding region's output.  Eight stages alternate a dense layer with a row scale
  and an accumulation over incidence pairs; the ninth scales the rows.  Composed, they are the second layer applied to
  the first one's output under max(., 0).
-/
import proofs.«106235_j31842887533233_2_alg».proof.Proof.FrameKernelIdeal
import proofs.«106235_j31842887533233_2_alg».proof.Proof.Arr
import proofs.«106235_j31842887533233_2_alg».proof.Proof.KerArgs
import proofs.«106235_j31842887533233_2_alg».proof.Proof.KerHost
import proofs.«106235_j31842887533233_2_alg».proof.Proof.KerRegion0
import proofs.«106235_j31842887533233_2_alg».proof.Proof.KerRegion1
import proofs.«106235_j31842887533233_2_alg».proof.Proof.KerRegion2
import proofs.«106235_j31842887533233_2_alg».proof.Proof.KerRegion3
import proofs.«106235_j31842887533233_2_alg».proof.Proof.KerRegion4

set_option maxRecDepth 16384

noncomputable section

open scoped BigOperators

namespace Cert.KerSide

open Cert.KernelIdeal Cert.KernelIdeal.Gen
open Idealize.ShloMosaic Idealize.ShloMosaic.TcCoe Idealize.ShloMosaic.ValueIdx
open Idealize.SL Idealize.SL.Sem
open Cert.Hnhn Cert.KerRegion Cert.KerArgs Cert.KerHost

variable (m : (ℓ : Loc nD τ sig) → Buf (Elt Ideal) ℓ) (ρ : Dev nD → PrngReg) (c : Dev nD)

/-- A projection read as a dense layer with a row scale. -/
theorem mat_proj (act : EReal → EReal) {R : ℕ} (x : (⟨2, ![R, 128]⟩ : Shape).Idx → EReal) (pre : (⟨2, ![R, 1]⟩ : Shape).Idx → EReal)
    (w : (⟨2, ![128, 128]⟩ : Shape).Idx → EReal) (b : (⟨1, ![128]⟩ : Shape).Idx → EReal) (post : (⟨2, ![R, 1]⟩ : Shape).Idx → EReal) :
    mat (proj act x pre w b post)
      = lin (fun r k => act (mat x r k * pre (ix2 r (0 : Fin 1)))) (mat w) (vec b) (fun r => post (ix2 r (0 : Fin 1))) := rfl

/-- The row scale read at an entry. -/
theorem scaleRows_apply {R : ℕ} (x : (⟨2, ![R, 128]⟩ : Shape).Idx → EReal) (s : (⟨2, ![R, 1]⟩ : Shape).Idx → EReal) (r : Fin R) (j : Fin 128) :
    scaleRows x s (ix2 r j) = s (ix2 r (0 : Fin 1)) * mat x r j := rfl

/-- Stage 1: the first dense layer (its input times a column of ones), scaled by the first node scale. -/
theorem stage1 : mat (R := 100000) (C := 128) (W2 m ρ c (Proc.devRef .tc main_v3))
    = lin (fun r k => mat (m ((c.tc : Thread nD τ).loc main_arg0)) r k * Ideal.ofBits .f32 0x3F800000#32) (mat (m ((c.tc : Thread nD τ).loc main_arg5))) (vec (m ((c.tc : Thread nD τ).loc main_arg6))) (vec (m ((c.tc : Thread nD τ).loc main_arg1))) := by
  have hA : W2 m ρ c (Proc.devRef .tc main_v3) = (dat0 (V1 m ρ) c).arrAt 5 cfg0.N := W2_arr m ρ c 5
  rw [hA, region0 (V1 m ρ) c, mat_proj]
  have a0 : V1 m ρ c main_arg0 = (m ((c.tc : Thread nD τ).loc main_arg0)) := kept1 m ρ main_arg0 (by decide) c
  have a5 : V1 m ρ c main_arg5 = (m ((c.tc : Thread nD τ).loc main_arg5)) := kept1 m ρ main_arg5 (by decide) c
  have a6 : V1 m ρ c main_arg6 = (m ((c.tc : Thread nD τ).loc main_arg6)) := kept1 m ρ main_arg6 (by decide) c
  have h1 : (fun r : Fin 100000 => V1 m ρ c main_v1 (ix2 r (0 : Fin 1))) = fun _ => Ideal.ofBits .f32 0x3F800000#32 :=
    funext fun r => host0_v1 (W0 m ρ c) r
  have h2 : (fun r : Fin 100000 => V1 m ρ c main_v2 (ix2 r (0 : Fin 1))) = vec (m ((c.tc : Thread nD τ).loc main_arg1)) :=
    funext fun r => host0_v2 (W0 m ρ c) r
  rw [a0, a5, a6, h2]
  refine congrArg (fun f => lin f (mat (m ((c.tc : Thread nD τ).loc main_arg5))) (vec (m ((c.tc : Thread nD τ).loc main_arg6))) (vec (m ((c.tc : Thread nD τ).loc main_arg1)))) (funext fun r => funext fun k => ?_)
  show mat (m ((c.tc : Thread nD τ).loc main_arg0)) r k * V1 m ρ c main_v1 (ix2 r (0 : Fin 1)) = _
  rw [congrFun h1 r]

/-- Stage 2: the first accumulation over the pairs of a hyperedge. -/
theorem stage2 : mat (R := 40000) (C := 128) (W3 m ρ c (Proc.devRef .tc main_v13))
    = acc (rawId (m ((c.tc : Thread nD τ).loc main_arg14))) (fun p => mat (R := 100000) (C := 128) (W2 m ρ c (Proc.devRef .tc main_v3)) (gRow 100000 (by decide) 100000#32 (m ((c.tc : Thread nD τ).loc main_arg13)) p)) := by
  funext q j
  have h := host1_v13 (W2 m ρ c) q j
  rw [(kept3 m ρ main_arg14 (by decide) (by decide) c).1, (kept3 m ρ main_arg13 (by decide) (by decide) c).1] at h
  exact h

/-- Stage 3: the hyperedge scale before the maximum, the second dense layer, the second hyperedge scale. -/
theorem stage3 : mat (R := 40000) (C := 128) (W4 m ρ c (Proc.devRef .tc main_v16))
    = lin (fun q k => max (mat (R := 40000) (C := 128) (W3 m ρ c (Proc.devRef .tc main_v13)) q k * vec (m ((c.tc : Thread nD τ).loc main_arg2)) q) 0) (mat (m ((c.tc : Thread nD τ).loc main_arg7))) (vec (m ((c.tc : Thread nD τ).loc main_arg8))) (vec (m ((c.tc : Thread nD τ).loc main_arg3))) := by
  have hA : W4 m ρ c (Proc.devRef .tc main_v16) = (dat1 (V3 m ρ) c).arrAt 5 cfg1.N := W4_arr m ρ c 5
  rw [hA, region1 (V3 m ρ) c, mat_proj]
  have a7 : V3 m ρ c main_arg7 = (m ((c.tc : Thread nD τ).loc main_arg7)) := (kept3 m ρ main_arg7 (by decide) (by decide) c).2
  have a8 : V3 m ρ c main_arg8 = (m ((c.tc : Thread nD τ).loc main_arg8)) := (kept3 m ρ main_arg8 (by decide) (by decide) c).2
  have h14 : (fun q : Fin 40000 => V3 m ρ c main_v14 (ix2 q (0 : Fin 1))) = vec (m ((c.tc : Thread nD τ).loc main_arg2)) :=
    funext fun q => (host1_v14 (W2 m ρ c) q).trans (congrFun (kept3 m ρ main_arg2 (by decide) (by decide) c).1 (ix1 q))
  have h15 : (fun q : Fin 40000 => V3 m ρ c main_v15 (ix2 q (0 : Fin 1))) = vec (m ((c.tc : Thread nD τ).loc main_arg3)) :=
    funext fun q => (host1_v15 (W2 m ρ c) q).trans (congrFun (kept3 m ρ main_arg3 (by decide) (by decide) c).1 (ix1 q))
  rw [a7, a8, h15]
  refine congrArg (fun f => lin f (mat (m ((c.tc : Thread nD τ).loc main_arg7))) (vec (m ((c.tc : Thread nD τ).loc main_arg8))) (vec (m ((c.tc : Thread nD τ).loc main_arg3)))) (funext fun q => funext fun k => ?_)
  show max (mat (V3 m ρ c main_v13) q k * V3 m ρ c main_v14 (ix2 q (0 : Fin 1))) 0 = _
  rw [congrFun h14 q]

/-- Stage 4: the second accumulation, over the pairs of a node. -/
theorem stage4 : mat (R := 100000) (C := 128) (W5 m ρ c (Proc.devRef .tc main_v26))
    = acc (rawId (m ((c.tc : Thread nD τ).loc main_arg13))) (fun p => mat (R := 40000) (C := 128) (W4 m ρ c (Proc.devRef .tc main_v16)) (gRow 40000 (by decide) 40000#32 (m ((c.tc : Thread nD τ).loc main_arg14)) p)) := by
  funext r j
  have h := host2_v26 (W4 m ρ c) r j
  rw [(kept5 m ρ main_arg13 (by decide) (by decide) (by decide) c).1, (kept5 m ρ main_arg14 (by decide) (by decide) (by decide) c).1] at h
  exact h

/-- Stage 5: the node scale of the first layer before the maximum, then the second layer's first dense layer. -/
theorem stage5 : mat (R := 100000) (C := 128) (W6 m ρ c (Proc.devRef .tc main_v29))
    = lin (fun r k => max (mat (R := 100000) (C := 128) (W5 m ρ c (Proc.devRef .tc main_v26)) r k * vec (m ((c.tc : Thread nD τ).loc main_arg4)) r) 0) (mat (m ((c.tc : Thread nD τ).loc main_arg9))) (vec (m ((c.tc : Thread nD τ).loc main_arg10))) (vec (m ((c.tc : Thread nD τ).loc main_arg1))) := by
  have hA : W6 m ρ c (Proc.devRef .tc main_v29) = (dat2 (V5 m ρ) c).arrAt 5 cfg2.N := W6_arr m ρ c 5
  rw [hA, region2 (V5 m ρ) c, mat_proj]
  have a9 : V5 m ρ c main_arg9 = (m ((c.tc : Thread nD τ).loc main_arg9)) := (kept5 m ρ main_arg9 (by decide) (by decide) (by decide) c).2
  have a10 : V5 m ρ c main_arg10 = (m ((c.tc : Thread nD τ).loc main_arg10)) := (kept5 m ρ main_arg10 (by decide) (by decide) (by decide) c).2
  have h27 : (fun r : Fin 100000 => V5 m ρ c main_v27 (ix2 r (0 : Fin 1))) = vec (m ((c.tc : Thread nD τ).loc main_arg4)) :=
    funext fun r => (host2_v27 (W4 m ρ c) r).trans (congrFun (kept5 m ρ main_arg4 (by decide) (by decide) (by decide) c).1 (ix1 r))
  have h28 : (fun r : Fin 100000 => V5 m ρ c main_v28 (ix2 r (0 : Fin 1))) = vec (m ((c.tc : Thread nD τ).loc main_arg1)) :=
    funext fun r => (host2_v28 (W4 m ρ c) r).trans (congrFun (kept5 m ρ main_arg1 (by decide) (by decide) (by decide) c).1 (ix1 r))
  rw [a9, a10, h28]
  refine congrArg (fun f => lin f (mat (m ((c.tc : Thread nD τ).loc main_arg9))) (vec (m ((c.tc : Thread nD τ).loc main_arg10))) (vec (m ((c.tc : Thread nD τ).loc main_arg1)))) (funext fun r => funext fun k => ?_)
  show max (mat (V5 m ρ c main_v26) r k * V5 m ρ c main_v27 (ix2 r (0 : Fin 1))) 0 = _
  rw [congrFun h27 r]

/-- Stage 6: the second layer's accumulation over the pairs of a hyperedge. -/
theorem stage6 : mat (R := 40000) (C := 128) (W7 m ρ c (Proc.devRef .tc main_v39))
    = acc (rawId (m ((c.tc : Thread nD τ).loc main_arg14))) (fun p => mat (R := 100000) (C := 128) (W6 m ρ c (Proc.devRef .tc main_v29)) (gRow 100000 (by decide) 100000#32 (m ((c.tc : Thread nD τ).loc main_arg13)) p)) := by
  funext q j
  have h := host3_v39 (W6 m ρ c) q j
  rw [(kept7 m ρ main_arg14 (by decide) (by decide) (by decide) (by decide) c).1, (kept7 m ρ main_arg13 (by decide) (by decide) (by decide) (by decide) c).1] at h
  exact h

/-- Stage 7: the second layer's hyperedge stage. -/
theorem stage7 : mat (R := 40000) (C := 128) (W8 m ρ c (Proc.devRef .tc main_v42))
    = lin (fun q k => max (mat (R := 40000) (C := 128) (W7 m ρ c (Proc.devRef .tc main_v39)) q k * vec (m ((c.tc : Thread nD τ).loc main_arg2)) q) 0) (mat (m ((c.tc : Thread nD τ).loc main_arg11))) (vec (m ((c.tc : Thread nD τ).loc main_arg12))) (vec (m ((c.tc : Thread nD τ).loc main_arg3))) := by
  have hA : W8 m ρ c (Proc.devRef .tc main_v42) = (dat3 (V7 m ρ) c).arrAt 5 cfg3.N := W8_arr m ρ c 5
  rw [hA, region3 (V7 m ρ) c, mat_proj]
  have a11 : V7 m ρ c main_arg11 = (m ((c.tc : Thread nD τ).loc main_arg11)) := (kept7 m ρ main_arg11 (by decide) (by decide) (by decide) (by decide) c).2
  have a12 : V7 m ρ c main_arg12 = (m ((c.tc : Thread nD τ).loc main_arg12)) := (kept7 m ρ main_arg12 (by decide) (by decide) (by decide) (by decide) c).2
  have h40 : (fun q : Fin 40000 => V7 m ρ c main_v40 (ix2 q (0 : Fin 1))) = vec (m ((c.tc : Thread nD τ).loc main_arg2)) :=
    funext fun q => (host3_v40 (W6 m ρ c) q).trans (congrFun (kept7 m ρ main_arg2 (by decide) (by decide) (by decide) (by decide) c).1 (ix1 q))
  have h41 : (fun q : Fin 40000 => V7 m ρ c main_v41 (ix2 q (0 : Fin 1))) = vec (m ((c.tc : Thread nD τ).loc main_arg3)) :=
    funext fun q => (host3_v41 (W6 m ρ c) q).trans (congrFun (kept7 m ρ main_arg3 (by decide) (by decide) (by decide) (by decide) c).1 (ix1 q))
  rw [a11, a12, h41]
  refine congrArg (fun f => lin f (mat (m ((c.tc : Thread nD τ).loc main_arg11))) (vec (m ((c.tc : Thread nD τ).loc main_arg12))) (vec (m ((c.tc : Thread nD τ).loc main_arg3)))) (funext fun q => funext fun k => ?_)
  show max (mat (V7 m ρ c main_v39) q k * V7 m ρ c main_v40 (ix2 q (0 : Fin 1))) 0 = _
  rw [congrFun h40 q]

/-- Stage 8: the second layer's accumulation over the pairs of a node. -/
theorem stage8 : mat (R := 100000) (C := 128) (W9 m ρ c (Proc.devRef .tc main_v52))
    = acc (rawId (m ((c.tc : Thread nD τ).loc main_arg13))) (fun p => mat (R := 40000) (C := 128) (W8 m ρ c (Proc.devRef .tc main_v42)) (gRow 40000 (by decide) 40000#32 (m ((c.tc : Thread nD τ).loc main_arg14)) p)) := by
  funext r j
  have h := host4_v52 (W8 m ρ c) r j
  rw [(kept9 m ρ main_arg13 (by decide) (by decide) (by decide) (by decide) (by decide) c).1,
    (kept9 m ρ main_arg14 (by decide) (by decide) (by decide) (by decide) (by decide) c).1] at h
  exact h

/-- Stage 9: the rows of the last accumulation, each times the second node scale. -/
theorem stage9 (r : Fin 100000) (j : Fin 128) : W10 m ρ c (Proc.devRef .tc main_v54) (ix2 r j)
    = vec (m ((c.tc : Thread nD τ).loc main_arg4)) r * mat (R := 100000) (C := 128) (W9 m ρ c (Proc.devRef .tc main_v52)) r j := by
  have hA : W10 m ρ c (Proc.devRef .tc main_v54) = (dat4 (V9 m ρ) c).arrAt 2 cfg4.N := W10_arr m ρ c 2
  have h53 : V9 m ρ c main_v53 (ix2 r (0 : Fin 1)) = vec (m ((c.tc : Thread nD τ).loc main_arg4)) r :=
    (host4_v53 (W8 m ρ c) r).trans (congrFun (kept9 m ρ main_arg4 (by decide) (by decide) (by decide) (by decide) (by decide) c).1 (ix1 r))
  rw [hA, region4 (V9 m ρ) c, scaleRows_apply, h53]

/-- THE KERNEL PROGRAM'S RESULT at an entry. -/
theorem ker_value (r : Fin 100000) (j : Fin 128) :
    W10 m ρ c (Proc.devRef .tc main_v54) (ix2 r j)
      = Cert.Hnhn.kerSpec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) r j := by
  rw [stage9, stage8, stage7, stage6, stage5, stage4, stage3, stage2, stage1]
  rfl

end Cert.KerSide

end
-- ==== Proof.RealArgs.lean ====
import proofs.«106235_j31842887533233_2_alg».proof.Pre_finite_inputs
import proofs.«106235_j31842887533233_2_alg».proof.Proof.Hnhn
import Idealize.ShloMosaic.Lib.ReduceAll
import Idealize.ShloMosaic.Lib.ValueIdx

/-!
  Finite inputs are real numbers.

  The precondition computes, for each of the thirteen arrays a of numbers, the conjunction over all entries x of a of
  the comparison |x| < +infinity, where |x| = max x (-x), and then the conjunction of the thirteen results.  On the
  extended reals the pattern 0x7F800000 is the top element, |bot| = |top| = top is not below top, and every other
  extended real is a real number.  So when the whole conjunction is true, every entry of every array is real.
-/

namespace Cert.RealArgs

open Idealize.ShloMosaic Cert.Pre_finite_inputs Cert.Hnhn

/-- The single-precision pattern of plus infinity denotes the top element. -/
theorem ofBits_inf : Ideal.ofBits .f32 0x7F800000#32 = (⊤ : EReal) := by
  simp [Ideal.ofBits, Ideal.ieee]

/-- An extended real x with max x (-x) strictly below plus infinity is a real number: for x = bot or x = top the
    maximum is top, which is not below itself. -/
theorem isR_of_abs_lt (x : EReal)
    (h : Ideal.cmp .olt (max x (-x)) (Ideal.ofBits .f32 0x7F800000#32) = 1#1) : IsR x := by
  rw [ofBits_inf] at h
  induction x using EReal.rec with
  | bot => simp [Ideal.cmp] at h
  | coe r => exact ⟨r, rfl⟩
  | top => simp [Ideal.cmp] at h

/-- The shape of rank zero has exactly one index. -/
instance : Subsingleton S_.Idx := ⟨fun a b => funext fun d => d.elim0⟩

/-- One array of any shape: if the conjunction over ALL its entries of |x| < +infinity (a reduction by "and" over
    every axis, started at true) is true, then every entry is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant S_ .f32 0x7F800000#32)))
          (constantI S_ 1 1#1) hr hu ValueIdx.ix0 = 1#1) :
    ∀ i, IsR (a i) := fun i =>
  isR_of_abs_lt (a i) (Host.reduce_andi_all _ _ hr hu ValueIdx.ix0 e i)

/-- All thirteen arrays: the precondition is the conjunction of the thirteen per-array conjunctions, nested to the
    left, so it is taken apart from the outside (the last conjunct belongs to the last array), and each part is
    read by the lemma for one array. -/
theorem real_of_pre [Cert.Pre_finite_inputs.Facts]
    (a0 : FVec Ideal S100000x128 .f32) (a1 : FVec Ideal S100000 .f32) (a2 : FVec Ideal S40000 .f32)
    (a3 : FVec Ideal S40000 .f32) (a4 : FVec Ideal S100000 .f32) (a5 : FVec Ideal S128x128 .f32)
    (a6 : FVec Ideal S128 .f32) (a7 : FVec Ideal S128x128 .f32) (a8 : FVec Ideal S128 .f32)
    (a9 : FVec Ideal S128x128 .f32) (a10 : FVec Ideal S128 .f32) (a11 : FVec Ideal S128x128 .f32)
    (a12 : FVec Ideal S128 .f32) (a13 : IVec S640000 32) (a14 : IVec S640000 32)
    (h : Cert.Pre_finite_inputs.fn (F := Ideal) a0 a1 a2 a3 a4 a5 a6 a7 a8 a9 a10 a11 a12 a13 a14 = fun _ => 1#1) :
    (∀ i, IsR (a0 i)) ∧ (∀ i, IsR (a1 i)) ∧ (∀ i, IsR (a2 i)) ∧ (∀ i, IsR (a3 i)) ∧ (∀ i, IsR (a4 i))
      ∧ (∀ i, IsR (a5 i)) ∧ (∀ i, IsR (a6 i)) ∧ (∀ i, IsR (a7 i)) ∧ (∀ i, IsR (a8 i)) ∧ (∀ i, IsR (a9 i))
      ∧ (∀ i, IsR (a10 i)) ∧ (∀ i, IsR (a11 i)) ∧ (∀ i, IsR (a12 i)) := by
  have h0 : Cert.Pre_finite_inputs.fn (F := Ideal) a0 a1 a2 a3 a4 a5 a6 a7 a8 a9 a10 a11 a12 a13 a14 ValueIdx.ix0 = 1#1 :=
    congrFun h ValueIdx.ix0
  dsimp only [fn, fn_part1, fn_part2, fn_part3] at h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨real_of_all a0 _ _ _ h0, real_of_all a1 _ _ _ h1, real_of_all a2 _ _ _ h2, real_of_all a3 _ _ _ h3,
    real_of_all a4 _ _ _ h4, real_of_all a5 _ _ _ h5, real_of_all a6 _ _ _ h6, real_of_all a7 _ _ _ h7,
    real_of_all a8 _ _ _ h8, real_of_all a9 _ _ _ h9, real_of_all a10 _ _ _ h10, real_of_all a11 _ _ _ h11,
    real_of_all a12 _ _ _ h12⟩

end Cert.RealArgs
-- ==== Proof.Assemble.lean ====
/-
  The two programs' results are one array.

  On a device the reference's result, entry (r, j), is the two-layer network in which every message is scaled before it
  is accumulated, and the kernel program's result is the network that accumulates first and scales the sums, each at its
  own launch memory's argument arrays.  The two memories agree on the arguments; the precondition makes every float
  argument a real number; and on real data the two networks are equal.
-/
import proofs.«106235_j31842887533233_2_alg».proof.Defs
import proofs.«106235_j31842887533233_2_alg».proof.Proof.Gen.KernelIdeal
import proofs.«106235_j31842887533233_2_alg».proof.Proof.Gen.ReferenceIdeal
import proofs.«106235_j31842887533233_2_alg».proof.Proof.Gen.Pre_finite_inputs
import proofs.«106235_j31842887533233_2_alg».proof.Proof.RefValue
import proofs.«106235_j31842887533233_2_alg».proof.Proof.KerValue
import proofs.«106235_j31842887533233_2_alg».proof.Proof.RealArgs

noncomputable section

namespace Cert.Assemble

open Idealize.ShloMosaic Idealize.ShloMosaic.TcCoe Idealize.ShloMosaic.ValueIdx Idealize.SL.Sem

/-- From memories that agree on the arguments, under the precondition, the reference's result array on device c is the
    kernel program's. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.res_main_v110 (F := Ideal) m' c = Cert.KernelIdeal.Gen.W10 m ρ c (Proc.devRef .tc Cert.KernelIdeal.main_v54) := by
  obtain ⟨h0, h1, h2, h3, h4, h5, h6, h7, h8, h9, h10, h11, h12, h13, h14⟩ := hagree
  obtain ⟨r0, r1, r2, r3, r4, r5, r6, r7, r8, r9, r10, r11, r12⟩ :=
    Cert.RealArgs.real_of_pre _ _ _ _ _ _ _ _ _ _ _ _ _ _ _ (hpre c)
  refine funext fun (i : (⟨2, ![100000, 128]⟩ : Shape).Idx) => ?_
  obtain ⟨r, j, rfl⟩ : ∃ (r : Fin 100000) (j : Fin 128), i = ix2 r j := ⟨i 0, i 1, eq_ix2 i⟩
  refine (Cert.RefSide.ref_value m' c r j).trans ?_
  refine Eq.trans ?_ (Cert.KerSide.ker_value m ρ c r j).symm
  rw [h0, h1, h2, h3, h4, h5, h6, h7, h8, h9, h10, h11, h12, h13, h14]
  exact Cert.Hnhn.refSpec_eq_kerSpec _ _ _ _ _ _ _ _ _ _ _ _ _ _ _ r0 r1 r2 r3 r4 r5 r6 r7 r8 r9 r10 r11 r12 r j

end Cert.Assemble

end
-- ==== Proof.lean ====
/-
  The certificate's claims.

  The three programs run, each leaving its arguments as launched: the kernel program at both float instances by the
  frames of its regions, the reference by the composed run of its host operations.  The idealization rewrote no
  operation.  At the ideal instance, from memories that agree on the arguments and under the precondition (every float
  argument finite, hence a real number), the kernel program ends with its result buffer at the network that accumulates
  the messages of the incidence pairs and then scales the sums, the reference with its result at the network that
  scales every message first; on real data a scale that is constant over the terms of a finite sum leaves the sum, so
  the two arrays are equal entry by entry.
-/
import proofs.«106235_j31842887533233_2_alg».proof.Defs
import proofs.«106235_j31842887533233_2_alg».proof.Proof.Gen.Kernel
import proofs.«106235_j31842887533233_2_alg».proof.Proof.Gen.KernelIdeal
import proofs.«106235_j31842887533233_2_alg».proof.Proof.Gen.ReferenceIdeal
import proofs.«106235_j31842887533233_2_alg».proof.Proof.Gen.ReferenceIdeal.Run
import proofs.«106235_j31842887533233_2_alg».proof.Proof.Gen.Pre_finite_inputs
import proofs.«106235_j31842887533233_2_alg».proof.Proof.FrameKernel
import proofs.«106235_j31842887533233_2_alg».proof.Proof.FrameKernelIdeal
import proofs.«106235_j31842887533233_2_alg».proof.Proof.KerRun
import proofs.«106235_j31842887533233_2_alg».proof.Proof.Assemble
import Idealize.ShloMosaic.Adequacy
import Idealize.ShloMosaic.Init

noncomputable section

namespace Cert.Proof

open Idealize.ShloMosaic Idealize.SL.Sem

/-- The kernel program runs and leaves its arguments, at the bit-exact instance, -/
theorem frame_k : Cert.frame_Kernel := fun m ρ _ => Cert.Kernel.Gen.frame m ρ

/-- and at the ideal instance. -/
theorem frame_ki : Cert.frame_KernelIdeal := fun m ρ _ => Cert.KernelIdeal.Gen.frame m ρ

/-- The reference runs and leaves its arguments. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- At the ideal instance both programs run, end with equal results and leave their arguments. -/
theorem algebraic : Cert.algebraic_KernelIdeal_ReferenceIdeal := by
  intro m ρ m' ρ' hpre hagree
  refine ⟨fun c => Cert.KernelIdeal.Gen.W10 m ρ c (Proc.devRef .tc Cert.KernelIdeal.main_v54),
    Cert.KerRun.run_named (F := Ideal) m ρ, ?_⟩
  exact (θ_run Cert.ReferenceIdeal.defs _ _).mono
    (fun _ h c => ⟨(h c).1.trans (Cert.Assemble.result_eq m ρ m' hpre c (hagree c)), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
